-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩

abbrev nBuf : Space → Nat
  | .hbm => 7
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S200x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 50], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c200_i32 : BitVec 32 := 200#32
  let v13 : BitVec 32 := Scalar.muli arg1 c200_i32
  let v14 : Index := Scalar.indexCast v13
  let c0_9 : Index := 0#32
  ![v14.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  h_S200x128 : 0 < S200x128.numel
  shapeCasts_S200x128_S200x128 : S200x128.ShapeCasts S200x128
  inb_S200x128_S200x128_0_0 : ∀ a, (![0, 0] : Fin 2 → Nat) a + S200x128.size a ≤ S200x128.size a
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ (k0_h1 : k0_cond1 i = 1#1), ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S128x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S128x128, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S128x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_cst : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BodyBits.lean ====
/-
  The kernel body, run once in each of its two phases, with what it leaves NAMED.

  The body is given the staging buffers of its seven windows (a 200-row block of the adjacency A, the features X,
  the three weight matrices, and the two 200-row output blocks) and a scratch H of 10000 × 128 of its own.
  * First phase (grid coordinate 0 is 0): it forms max ((A_blk · X) · W₀ᵀ) 0 — the payload `k0_pay1` — and stores
    it into the 200 rows of H that the second grid coordinate selects; everything else is left as found. What H then
    holds is `filled`: those rows overwritten, every other row as before.
  * Second phase (grid coordinate 0 is 1): it reads the whole of H and stores (A_blk · H) · W₁ᵀ (`k0_pay3`) and
    (A_blk · H) · W_ssᵀ (`k0_pay4`) over the whole of the two output blocks; H and the inputs are left as found.
  Both statements hold at any float instance; nothing of the arithmetic is opened here.
-/
import proofs.«175781_g85864986181826_cont_sun_m_356_4_alg».proof.Proof.Gen.Kernel.Frame
import proofs.«175781_g85864986181826_cont_sun_m_356_4_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores read back -/

/-- The two zero offsets, however spelt, are the zero function. -/
theorem zero2 : (![0, 0] : Fin 2 → ℕ) = fun _ => 0 := funext (Fin.forall_fin_two.mpr ⟨rfl, rfl⟩)

/-- A load of a whole buffer through the full rectangle at zero offsets reads its contents. -/
theorem load_whole {s : Shape} (mr : Memref sig .tc .vmem s .f32) (h : mr.IsWhole) (X : Vec F s .f32)
    {off : Fin s.rank → ℕ} (hz : off = fun _ => 0) (inb : ∀ a, off a + s.size a ≤ s.size a) :
    View.readAt (Elt F) mr.view (Rect.unit off s.size inb).toLoadRect (h.unread X) = X := by
  rw [View.readAt_eq_ld, h.read_unread, View.ld_unit_zero hz]

/-- One store through the full rectangle at zero offsets leaves its payload, whatever was there. -/
theorem store_whole {s : Shape} (v : View sig .tc .vmem s .f32) (f : v.ty.Contents (Elt F))
    {off : Fin s.rank → ℕ} (hz : off = fun _ => 0) (inb : ∀ a, off a + s.size a ≤ s.size a) (w : s.Idx → Elt F .f32) :
    v.read (Elt F) (v.writes (Elt F) f [(⟨Rect.unit off s.size inb, w⟩ : View.Piece (Elt F) s .f32)]) = w := by
  rw [View.read_writes_eq_canon v f _ (fun y => ⟨_, List.mem_singleton_self _, View.mem_set_unit_zero hz inb y⟩),
    View.canon_unit_zero hz]

/-! ## What the first phase leaves in the scratch -/

/-- The scratch after the first phase at grid point `i`: the 200 rows the point selects hold `w`, the others what
    they held (`xs`). -/
def filled (arg9 : Memref sig .tc .vmem S10000x128 .f32) (harg9 : arg9.IsWhole) (i : grid0.Coords)
    (hc0 : k0_cond1 i = 1#1) (w : Vec F S200x128 .f32) (xs : Vec F S10000x128 .f32) : Vec F S10000x128 .f32 :=
  arg9.view.read (Elt F) (arg9.view.writes (Elt F) (harg9.unread xs)
    [(⟨Rect.unit (s := S10000x128) (k0_off1 i) S200x128.size (k0_off1_inb i hc0), w⟩ : View.Piece (Elt F) S10000x128 .f32)])

/-- A row among the 200 selected rows `[o, o + 200)` reads the stored block at its position. -/
theorem filled_of_mem (arg9 : Memref sig .tc .vmem S10000x128 .f32) (harg9 : arg9.IsWhole) (i : grid0.Coords)
    (hc0 : k0_cond1 i = 1#1) (w : Vec F S200x128 .f32) (xs : Vec F S10000x128 .f32) {o : ℕ} (hoff : k0_off1 i = ![o, 0])
    (y : S10000x128.Idx) (x : S200x128.Idx) (h0 : (y 0).val = o + (x 0).val) (h1 : (y 1).val = (x 1).val) :
    filled arg9 harg9 i hc0 w xs y = w x :=
  View.read_writes_cons_rows_of_mem (d := ![10000, 128]) arg9.view (harg9.unread xs) (k0_off1_inb i hc0) w [] y x hoff h0 h1

/-- A row outside them reads what the scratch held before. -/
theorem filled_of_not_mem (arg9 : Memref sig .tc .vmem S10000x128 .f32) (harg9 : arg9.IsWhole) (i : grid0.Coords)
    (hc0 : k0_cond1 i = 1#1) (w : Vec F S200x128 .f32) (xs : Vec F S10000x128 .f32) {o : ℕ} (hoff : k0_off1 i = ![o, 0])
    (y : S10000x128.Idx) (h : (y 0).val < o ∨ o + 200 ≤ (y 0).val) :
    filled arg9 harg9 i hc0 w xs y = xs y := by
  unfold filled
  rw [View.read_writes_cons_rows_of_not_mem (d := ![10000, 128]) arg9.view (harg9.unread xs) (k0_off1_inb i hc0) w [] y hoff (W := 200) rfl h]
  exact congrFun (harg9.read_unread xs) y

/-! ## The two phases -/

set_option maxHeartbeats 1000000 in
/-- THE FIRST PHASE on whole staging memrefs: the inputs at their contents, the two output blocks at whatever they
    hold (`xi5`, `xi6`), the scratch at `xs`. The body runs to the continuation with everything as it was except the
    scratch, now `filled` with the rectified first layer of the point's block of rows. -/
theorem run_fill (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S10000x128 .f32) (harg9 : arg9.IsWhole)
    (hc0 : k0_cond1 i = 1#1) (hc1 : ¬ k0_cond2 i = 1#1)
    (x0 : Vec F S200x10000 .f32) (x1 : Vec F S10000x128 .f32) (x2 x3 x4 : Vec F S128x128 .f32) (xi5 xi6 : Vec F S200x128 .f32) (xs : Vec F S10000x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6
            ∗ owns (c : Thread nD τ) arg9 fullShare (filled arg9 harg9 i hc0 (k0_pay1 x0 x1 x2) xs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold filled owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs
  sl_exec (disch := first | exact hc0 | exact hc1)
  sl_step
  rw [load_whole arg2 harg2 x0 zero2, load_whole arg3 harg3 x1 zero2, load_whole arg4 harg4 x2 zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  isplitl [H6]
  · iexists _; isplitr; · ipureintro; exact hf6
    iexact H6
  iexists _; isplitr; swap; · iexact HS
  ipureintro; rfl

set_option maxHeartbeats 1000000 in
/-- THE SECOND PHASE on whole staging memrefs: the inputs at their contents, the two output blocks at anything, the
    scratch at `xs`. The body runs to the continuation with the inputs and the scratch as they were and the two
    output blocks at the two heads of the point's block of rows of A against the scratch. -/
theorem run_heads (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S10000x128 .f32) (harg9 : arg9.IsWhole)
    (hc0 : ¬ k0_cond1 i = 1#1) (hc1 : k0_cond2 i = 1#1)
    (x0 : Vec F S200x10000 .f32) (x1 : Vec F S10000x128 .f32) (x2 x3 x4 : Vec F S128x128 .f32) (xs : Vec F S10000x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 x0 xs x3) ∗ owns (c : Thread nD τ) arg8 fullShare (k0_pay4 x0 xs x4)
            ∗ owns (c : Thread nD τ) arg9 fullShare xs) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs
  sl_exec (disch := first | exact hc0 | exact hc1)
  sl_step
  rw [load_whole arg2 harg2 x0 zero2, load_whole arg9 harg9 xs zero2, load_whole arg5 harg5 x3 zero2, load_whole arg6 harg6 x4 zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact store_whole arg7.view f5 zero2 _ _
  isplitl [H6]
  · iexists _; isplitr; swap; · iexact H6
    ipureintro; exact store_whole arg8.view f6 zero2 _ _
  iexists _; isplitr; · ipureintro; exact harg9.read_unread _
  iexact HS

end Cert.Kernel.Body

end
-- ==== Proof.RunBits.lean ====
/-
  The kernel's run with everything it leaves NAMED, at any float instance.

  The grid has 100 points, t = 50 · phase + i. Through the first phase (t < 50) point t stores the rectified first
  layer of rows [200 t, 200 t + 200) — `hiddenBlock t` — into those rows of the scratch; through the second
  (50 ≤ t) the scratch is only read. So before point n the scratch agrees with the whole hidden layer `hfull` on
  the rows below 200 · min n 50, whatever it held at launch: that is the invariant (`Good`, `PhiH`), and from
  point 50 on the scratch IS `hfull`. The two output blocks are idle through the first phase and at each point t
  of the second are the two heads of the point's rows of A against `hfull`. With this proof data the library's
  launch theorem gives the run (`run_main`) and, forgetting the outputs, the frame (`frame`).
-/
import proofs.«175781_g85864986181826_cont_sun_m_356_4_alg».proof.Proof.BodyBits
import Idealize.ShloMosaic.Lib.ValueIdx

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, decided once -/

/-- The first conditional of the body holds exactly at the points of the first phase, -/
theorem first_phase_iff : ∀ t : Fin cfg0.N, k0_cond1 (grid0.coords t) = 1#1 ↔ t.val < 50 :=
  (by decide +kernel : ∀ t : Fin grid0.N, k0_cond1 (grid0.coords t) = 1#1 ↔ t.val < 50)
/-- the second exactly at those of the second phase. -/
theorem second_phase_iff : ∀ t : Fin cfg0.N, k0_cond2 (grid0.coords t) = 1#1 ↔ 50 ≤ t.val :=
  (by decide +kernel : ∀ t : Fin grid0.N, k0_cond2 (grid0.coords t) = 1#1 ↔ 50 ≤ t.val)
/-- Point t of the first phase stores at row 200 t, column 0 of the scratch. -/
theorem fill_rows : ∀ t : Fin cfg0.N, t.val < 50 → k0_off1 (grid0.coords t) = ![200 * t.val, 0] := by decide +kernel

/-- The inputs are live at every point. -/
theorem in_live0 : ∀ t : Fin cfg0.N, cfg0.idle 0 (grid0.coords t) = false := by decide +kernel
theorem in_live1 : ∀ t : Fin cfg0.N, cfg0.idle 1 (grid0.coords t) = false := by decide +kernel
theorem in_live2 : ∀ t : Fin cfg0.N, cfg0.idle 2 (grid0.coords t) = false := by decide +kernel
theorem in_live3 : ∀ t : Fin cfg0.N, cfg0.idle 3 (grid0.coords t) = false := by decide +kernel
theorem in_live4 : ∀ t : Fin cfg0.N, cfg0.idle 4 (grid0.coords t) = false := by decide +kernel
/-- Output window 5 is idle through the first phase, -/
theorem out5_idle : ∀ t : Fin cfg0.N, t.val < 50 → cfg0.idle 5 (grid0.coords t) = true := by decide +kernel
/-- is not written back there, -/
theorem out5_kept : ∀ t : Fin cfg0.N, t.val < 50 → (cfg0.win 5).flush t = false := by decide +kernel
/-- and is live through the second. -/
theorem out5_live : ∀ t : Fin cfg0.N, 50 ≤ t.val → cfg0.idle 5 (grid0.coords t) = false := by decide +kernel
/-- Output window 6 is idle through the first phase, -/
theorem out6_idle : ∀ t : Fin cfg0.N, t.val < 50 → cfg0.idle 6 (grid0.coords t) = true := by decide +kernel
/-- is not written back there, -/
theorem out6_kept : ∀ t : Fin cfg0.N, t.val < 50 → (cfg0.win 6).flush t = false := by decide +kernel
/-- and is live through the second. -/
theorem out6_live : ∀ t : Fin cfg0.N, 50 ≤ t.val → cfg0.idle 6 (grid0.coords t) = false := by decide +kernel

theorem N100 : cfg0.N = 100 := N_0

/-! ## The staging memrefs and the scratch -/

abbrev buf0 (t : Fin cfg0.N) : Memref sig .tc .vmem S200x10000 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S10000x128 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S128x128 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S128x128 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S128x128 .f32 := win0_4.stage (cfg0.slots t 4)
abbrev whole4 (t : Fin cfg0.N) : (buf4 t).IsWhole := hstage0_4 ((cfg0.slots t 4).cast nbuf0_4)
abbrev buf5 (t : Fin cfg0.N) : Memref sig .tc .vmem S200x128 .f32 := win0_5.stage (cfg0.slots t 5)
abbrev whole5 (t : Fin cfg0.N) : (buf5 t).IsWhole := hstage0_5 ((cfg0.slots t 5).cast nbuf0_5)
abbrev buf6 (t : Fin cfg0.N) : Memref sig .tc .vmem S200x128 .f32 := win0_6.stage (cfg0.slots t 6)
abbrev whole6 (t : Fin cfg0.N) : (buf6 t).IsWhole := hstage0_6 ((cfg0.slots t 6).cast nbuf0_6)
/-- The scratch: a whole scoped buffer of the kernel's own. -/
abbrev scr : Memref sig .tc .vmem S10000x128 .f32 := Memref.whole cc0_scratch0

/-- What the launch hands the region besides the windows: the scratch at some contents and the generator register. -/
theorem region_rest (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The hidden layer as the body computes it -/

/-- The rectified first layer of the 200 rows of A staged at point `b`. -/
def hiddenBlock (c : Dev nD) (b : Fin cfg0.N) : Vec F S200x128 .f32 :=
  k0_pay1 (iblk m c 0 b) (iblk m c 1 b) (iblk m c 2 b)

/-- The whole hidden layer: row r is row r % 200 of the block of point r / 200. -/
def hfull (c : Dev nD) : Vec F S10000x128 .f32 := fun y =>
  hiddenBlock m c ⟨(y 0).val / 200, by
      have h : (y 0).val < 10000 := (y 0).isLt
      have hN : cfg0.N = 100 := N100
      omega⟩
    (ValueIdx.ix2 (⟨(y 0).val % 200, Nat.mod_lt _ (by decide)⟩ : Fin 200) (⟨(y 1).val, (y 1).isLt⟩ : Fin 128))

/-- Contents `d` of the scratch agree with the hidden layer on the blocks of rows stored before point `n`. -/
def Good (c : Dev nD) (n : ℕ) (d : Vec F S10000x128 .f32) : Prop :=
  ∀ b : Fin cfg0.N, b.val < 50 → b.val < n → ∀ (y : S10000x128.Idx) (x : S200x128.Idx),
    (y 0).val = 200 * b.val + (x 0).val → (y 1).val = (x 1).val → d y = hiddenBlock m c b x

theorem good_zero (c : Dev nD) (d : Vec F S10000x128 .f32) : Good m c 0 d :=
  fun _ _ h => absurd h (Nat.not_lt_zero _)

/-- Once all fifty blocks are stored the scratch is the hidden layer. -/
theorem good_full (c : Dev nD) {n : ℕ} {d : Vec F S10000x128 .f32} (h : Good m c n d) (hn : 50 ≤ n) : d = hfull m c := by
  funext y
  have hy : (y 0).val < 10000 := (y 0).isLt
  have hN : cfg0.N = 100 := N100
  refine h ⟨(y 0).val / 200, by omega⟩ (by show (y 0).val / 200 < 50; omega) (by show (y 0).val / 200 < n; omega) y _ ?_ ?_
  · show (y 0).val = 200 * ((y 0).val / 200) + (y 0).val % 200
    omega
  · rfl

/-- Nothing is stored into the scratch through the second phase. -/
theorem good_later (c : Dev nD) {n : ℕ} {d : Vec F S10000x128 .f32} (h : Good m c n d) (hn : 50 ≤ n) : Good m c (n + 1) d :=
  fun b hb _ => h b hb (by omega)

/-- A point of the first phase stores its block over what was there: the earlier blocks stay, its own is added. -/
theorem good_step (c : Dev nD) (t : Fin cfg0.N) (ht : t.val < 50) (hc0 : k0_cond1 (grid0.coords t) = 1#1)
    {d : Vec F S10000x128 .f32} (h : Good m c t.val d) :
    Good m c (t.val + 1) (filled scr (Memref.isWhole_whole _) (grid0.coords t) hc0 (hiddenBlock m c t) d) := by
  intro b hb hbt y x h0 h1
  by_cases hbt' : b.val < t.val
  · rw [filled_of_not_mem scr _ _ hc0 _ d (fill_rows t ht) y (Or.inl (by
      have hx : (x 0).val < 200 := (x 0).isLt
      omega))]
    exact h b hb hbt' y x h0 h1
  · have hbe : b = t := Fin.ext (by omega)
    subst hbe
    exact filled_of_mem scr _ _ hc0 _ d (fill_rows b ht) y x h0 h1

/-- The region invariant before point `n`: the scratch at contents good up to `n`, and the generator register. -/
def PhiH (c : Dev nD) (n : ℕ) : sProp 𝕄 :=
  iprop(∃ d, ⌜Good m c n d⌝ ∗ owns (c : Thread nD τ) scr fullShare d ∗ (∃ r, prngReg c r))

/-! ## The proof data -/

/-- On core `c`: the arrays as the region finds them; after the body each input's buffer at its block, the two
    outputs' at the two heads of the point's rows of A against the hidden layer (read only at the points of the second
    phase: through the first the windows are idle); the invariant `PhiH`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (hfull m c) (iblk m c 3 t)
    | ⟨6, _⟩ => k0_pay4 (iblk m c 0 t) (hfull m c) (iblk m c 4 t)
  Φ t := PhiH m c t.val
  q _ := fullShare
  owed _ := 0

theorem arrays_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out5 (c : Dev nD) (t : Fin cfg0.N) : (dats m 0 c).after 5 t = k0_pay3 (iblk m c 0 t) (hfull m c) (iblk m c 3 t) := by dsimp only [dats]
theorem after_out6 (c : Dev nD) (t : Fin cfg0.N) : (dats m 0 c).after 6 t = k0_pay4 (iblk m c 0 t) (hfull m c) (iblk m c 4 t) := by dsimp only [dats]

theorem before_in0 (c : Dev nD) (t : Fin cfg0.N) (d) : (dats m 0 c).before 0 t d = iblk m c 0 t :=
  before0_0_of m (dats m 0 c) (arrays_eq m c 0) (after_in0 m c) t d
theorem before_in1 (c : Dev nD) (t : Fin cfg0.N) (d) : (dats m 0 c).before 1 t d = iblk m c 1 t :=
  before0_1_of m (dats m 0 c) (arrays_eq m c 1) (after_in1 m c) t d
theorem before_in2 (c : Dev nD) (t : Fin cfg0.N) (d) : (dats m 0 c).before 2 t d = iblk m c 2 t :=
  before0_2_of m (dats m 0 c) (arrays_eq m c 2) (after_in2 m c) t d
theorem before_in3 (c : Dev nD) (t : Fin cfg0.N) (d) : (dats m 0 c).before 3 t d = iblk m c 3 t :=
  before0_3_of m (dats m 0 c) (arrays_eq m c 3) (after_in3 m c) t d
theorem before_in4 (c : Dev nD) (t : Fin cfg0.N) (d) : (dats m 0 c).before 4 t d = iblk m c 4 t :=
  before0_4_of m (dats m 0 c) (arrays_eq m c 4) (after_in4 m c) t d

theorem inv_start (c : Dev nD) (t : Fin cfg0.N) : (dats m 0 c).Φ t.castSucc = PhiH m c t.val := by
  dsimp only [dats]; simp only [Fin.coe_castSucc]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. In the first phase the invariant hands over the scratch good up to `t` and takes it back
    `filled` with the point's block, good up to `t + 1`; the idle outputs pass through untouched. In the second
    phase the scratch is the whole hidden layer, so the two heads the body stores are the proof data's. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).owesAt () t.succ = (dats m 0 c).owesAt () t.castSucc from rfl]
  rw [show (dats m 0 c).Φ t.succ = PhiH m c (t.val + 1) from rfl, inv_start m c t]
  unfold PhiH
  have hN : t.val < 100 := lt_of_lt_of_eq t.isLt N100
  by_cases h : t.val < 50
  · have hc0 : k0_cond1 (grid0.coords t) = 1#1 := (first_phase_iff t).mpr h
    have hc1 : ¬ k0_cond2 (grid0.coords t) = 1#1 := fun h' => absurd ((second_phase_iff t).mp h') (by omega)
    rw [show (dats m 0 c).leavesExact 0 t = owns (c : Thread nD τ) (buf0 t) fullShare ((dats m 0 c).after 0 t) from by
      unfold Dat.leavesExact; rw [in_live0 t], after_in0]
    rw [show (dats m 0 c).leavesExact 1 t = owns (c : Thread nD τ) (buf1 t) fullShare ((dats m 0 c).after 1 t) from by
      unfold Dat.leavesExact; rw [in_live1 t], after_in1]
    rw [show (dats m 0 c).leavesExact 2 t = owns (c : Thread nD τ) (buf2 t) fullShare ((dats m 0 c).after 2 t) from by
      unfold Dat.leavesExact; rw [in_live2 t], after_in2]
    rw [show (dats m 0 c).leavesExact 3 t = owns (c : Thread nD τ) (buf3 t) fullShare ((dats m 0 c).after 3 t) from by
      unfold Dat.leavesExact; rw [in_live3 t], after_in3]
    rw [show (dats m 0 c).leavesExact 4 t = owns (c : Thread nD τ) (buf4 t) fullShare ((dats m 0 c).after 4 t) from by
      unfold Dat.leavesExact; rw [in_live4 t], after_in4]
    rw [Dat.leavesExact_idle (dats m 0 c) 5 t (out5_idle t h) (out5_kept t h),
      Dat.leavesExact_idle (dats m 0 c) 6 t (out6_idle t h) (out6_kept t h)]
    iintro ⟨⟨%d, %hd, HS, Hg⟩, Ho, ⟨%d0, H0⟩, ⟨%d1, H1⟩, ⟨%d2, H2⟩, ⟨%d3, H3⟩, ⟨%d4, H4⟩, ⟨%d5, H5⟩, ⟨%d6, H6⟩⟩
    iapply (run_fill c (grid0.coords t) _ (whole0 t) _ (whole1 t) _ (whole2 t) _ (whole3 t) _ (whole4 t) _ (whole5 t) _ (whole6 t) scr (Memref.isWhole_whole _)
      hc0 hc1 (iblk m c 0 t) (iblk m c 1 t) (iblk m c 2 t) (iblk m c 3 t) (iblk m c 4 t)
      ((dats m 0 c).before 5 t d5) ((dats m 0 c).before 6 t d6) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · iexists _
      isplitr
      · ipureintro; exact good_step m c t h hc0 hd
      isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have h' : 50 ≤ t.val := Nat.le_of_not_lt h
    have hc0 : ¬ k0_cond1 (grid0.coords t) = 1#1 := fun h'' => h ((first_phase_iff t).mp h'')
    have hc1 : k0_cond2 (grid0.coords t) = 1#1 := (second_phase_iff t).mpr h'
    rw [show (dats m 0 c).leavesExact 0 t = owns (c : Thread nD τ) (buf0 t) fullShare ((dats m 0 c).after 0 t) from by
      unfold Dat.leavesExact; rw [in_live0 t], after_in0]
    rw [show (dats m 0 c).leavesExact 1 t = owns (c : Thread nD τ) (buf1 t) fullShare ((dats m 0 c).after 1 t) from by
      unfold Dat.leavesExact; rw [in_live1 t], after_in1]
    rw [show (dats m 0 c).leavesExact 2 t = owns (c : Thread nD τ) (buf2 t) fullShare ((dats m 0 c).after 2 t) from by
      unfold Dat.leavesExact; rw [in_live2 t], after_in2]
    rw [show (dats m 0 c).leavesExact 3 t = owns (c : Thread nD τ) (buf3 t) fullShare ((dats m 0 c).after 3 t) from by
      unfold Dat.leavesExact; rw [in_live3 t], after_in3]
    rw [show (dats m 0 c).leavesExact 4 t = owns (c : Thread nD τ) (buf4 t) fullShare ((dats m 0 c).after 4 t) from by
      unfold Dat.leavesExact; rw [in_live4 t], after_in4]
    rw [show (dats m 0 c).leavesExact 5 t = owns (c : Thread nD τ) (buf5 t) fullShare ((dats m 0 c).after 5 t) from by
      unfold Dat.leavesExact; rw [out5_live t h'], after_out5]
    rw [show (dats m 0 c).leavesExact 6 t = owns (c : Thread nD τ) (buf6 t) fullShare ((dats m 0 c).after 6 t) from by
      unfold Dat.leavesExact; rw [out6_live t h'], after_out6]
    iintro ⟨⟨%d, %hd, HS, Hg⟩, Ho, ⟨%d0, H0⟩, ⟨%d1, H1⟩, ⟨%d2, H2⟩, ⟨%d3, H3⟩, ⟨%d4, H4⟩, ⟨%d5, H5⟩, ⟨%d6, H6⟩⟩
    obtain rfl : d = hfull m c := good_full m c hd h'
    iapply (run_heads c (grid0.coords t) _ (whole0 t) _ (whole1 t) _ (whole2 t) _ (whole3 t) _ (whole4 t) _ (whole5 t) _ (whole6 t) scr (Memref.isWhole_whole _)
      hc0 hc1 (iblk m c 0 t) (iblk m c 1 t) (iblk m c 2 t) (iblk m c 3 t) (iblk m c 4 t) (hfull m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · iexists _
      isplitr
      · ipureintro; exact good_later m c hd h'
      isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact body_at m c t

/-- What the launch hands the region is the invariant before the first point: nothing is asked of the scratch yet. -/
theorem inv_in (c : Dev nD) : Pipeline.ΦA spec0 c ⊢ (dats m 0 c).Φ 0 := by
  rw [show (dats m 0 c).Φ 0 = PhiH m c 0 from rfl, region_rest]
  unfold PhiH
  iintro ⟨⟨%d, HS⟩, Hg⟩
  iexists d
  isplitr
  · ipureintro; exact good_zero m c d
  isplitl [HS]
  · iexact HS
  iexact Hg

/-- After the last point the invariant gives it back: what the scratch holds is forgotten. -/
theorem inv_out (c : Dev nD) : (dats m 0 c).Φ (Fin.last cfg0.N) ⊢ Pipeline.ΦA spec0 c := by
  rw [show (dats m 0 c).Φ (Fin.last cfg0.N) = PhiH m c (Fin.last cfg0.N).val from rfl, region_rest]
  unfold PhiH
  iintro ⟨%d, -, HS, Hg⟩
  isplitl [HS]
  · iexists _; iexact HS
  iexact Hg

/-! ## The run and the frame -/

set_option backward.isDefEq.respectTransparency.types false in
/-- Every weakly fair execution of @main terminates, and every final state has every array of the pipeline at what
    the library computes from the proof data — an input unchanged, an output its entry contents overwritten by the
    blocks written back — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arrays_eq m) (hin := inv_in m) (hout := inv_out m)

/-- The frame claim's post, at any float instance: the program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays_eq m) (run_main m ρ)

end Cert.Kernel.Run

end
-- ==== Proof.Body.lean ====
/-
  The kernel body, run once in each of its two phases, with what it leaves NAMED.

  The body is given the staging buffers of its seven windows (a 200-row block of the adjacency A, the features X,
  the three weight matrices, and the two 200-row output blocks) and a scratch H of 10000 × 128 of its own.
  * First phase (grid coordinate 0 is 0): it forms max ((A_blk · X) · W₀ᵀ) 0 — the payload `k0_pay1` — and stores
    it into the 200 rows of H that the second grid coordinate selects; everything else is left as found. What H then
    holds is `filled`: those rows overwritten, every other row as before.
  * Second phase (grid coordinate 0 is 1): it reads the whole of H and stores (A_blk · H) · W₁ᵀ (`k0_pay3`) and
    (A_blk · H) · W_ssᵀ (`k0_pay4`) over the whole of the two output blocks; H and the inputs are left as found.
  Both statements hold at any float instance; nothing of the arithmetic is opened here.
-/
import proofs.«175781_g85864986181826_cont_sun_m_356_4_alg».proof.Proof.Gen.KernelIdeal.Frame
import proofs.«175781_g85864986181826_cont_sun_m_356_4_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores read back -/

/-- The two zero offsets, however spelt, are the zero function. -/
theorem zero2 : (![0, 0] : Fin 2 → ℕ) = fun _ => 0 := funext (Fin.forall_fin_two.mpr ⟨rfl, rfl⟩)

/-- A load of a whole buffer through the full rectangle at zero offsets reads its contents. -/
theorem load_whole {s : Shape} (mr : Memref sig .tc .vmem s .f32) (h : mr.IsWhole) (X : Vec F s .f32)
    {off : Fin s.rank → ℕ} (hz : off = fun _ => 0) (inb : ∀ a, off a + s.size a ≤ s.size a) :
    View.readAt (Elt F) mr.view (Rect.unit off s.size inb).toLoadRect (h.unread X) = X := by
  rw [View.readAt_eq_ld, h.read_unread, View.ld_unit_zero hz]

/-- One store through the full rectangle at zero offsets leaves its payload, whatever was there. -/
theorem store_whole {s : Shape} (v : View sig .tc .vmem s .f32) (f : v.ty.Contents (Elt F))
    {off : Fin s.rank → ℕ} (hz : off = fun _ => 0) (inb : ∀ a, off a + s.size a ≤ s.size a) (w : s.Idx → Elt F .f32) :
    v.read (Elt F) (v.writes (Elt F) f [(⟨Rect.unit off s.size inb, w⟩ : View.Piece (Elt F) s .f32)]) = w := by
  rw [View.read_writes_eq_canon v f _ (fun y => ⟨_, List.mem_singleton_self _, View.mem_set_unit_zero hz inb y⟩),
    View.canon_unit_zero hz]

/-! ## What the first phase leaves in the scratch -/

/-- The scratch after the first phase at grid point `i`: the 200 rows the point selects hold `w`, the others what
    they held (`xs`). -/
def filled (arg9 : Memref sig .tc .vmem S10000x128 .f32) (harg9 : arg9.IsWhole) (i : grid0.Coords)
    (hc0 : k0_cond1 i = 1#1) (w : Vec F S200x128 .f32) (xs : Vec F S10000x128 .f32) : Vec F S10000x128 .f32 :=
  arg9.view.read (Elt F) (arg9.view.writes (Elt F) (harg9.unread xs)
    [(⟨Rect.unit (s := S10000x128) (k0_off1 i) S200x128.size (k0_off1_inb i hc0), w⟩ : View.Piece (Elt F) S10000x128 .f32)])

/-- A row among the 200 selected rows `[o, o + 200)` reads the stored block at its position. -/
theorem filled_of_mem (arg9 : Memref sig .tc .vmem S10000x128 .f32) (harg9 : arg9.IsWhole) (i : grid0.Coords)
    (hc0 : k0_cond1 i = 1#1) (w : Vec F S200x128 .f32) (xs : Vec F S10000x128 .f32) {o : ℕ} (hoff : k0_off1 i = ![o, 0])
    (y : S10000x128.Idx) (x : S200x128.Idx) (h0 : (y 0).val = o + (x 0).val) (h1 : (y 1).val = (x 1).val) :
    filled arg9 harg9 i hc0 w xs y = w x :=
  View.read_writes_cons_rows_of_mem (d := ![10000, 128]) arg9.view (harg9.unread xs) (k0_off1_inb i hc0) w [] y x hoff h0 h1

/-- A row outside them reads what the scratch held before. -/
theorem filled_of_not_mem (arg9 : Memref sig .tc .vmem S10000x128 .f32) (harg9 : arg9.IsWhole) (i : grid0.Coords)
    (hc0 : k0_cond1 i = 1#1) (w : Vec F S200x128 .f32) (xs : Vec F S10000x128 .f32) {o : ℕ} (hoff : k0_off1 i = ![o, 0])
    (y : S10000x128.Idx) (h : (y 0).val < o ∨ o + 200 ≤ (y 0).val) :
    filled arg9 harg9 i hc0 w xs y = xs y := by
  unfold filled
  rw [View.read_writes_cons_rows_of_not_mem (d := ![10000, 128]) arg9.view (harg9.unread xs) (k0_off1_inb i hc0) w [] y hoff (W := 200) rfl h]
  exact congrFun (harg9.read_unread xs) y

/-! ## The two phases -/

set_option maxHeartbeats 1000000 in
/-- THE FIRST PHASE on whole staging memrefs: the inputs at their contents, the two output blocks at whatever they
    hold (`xi5`, `xi6`), the scratch at `xs`. The body runs to the continuation with everything as it was except the
    scratch, now `filled` with the rectified first layer of the point's block of rows. -/
theorem run_fill (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S10000x128 .f32) (harg9 : arg9.IsWhole)
    (hc0 : k0_cond1 i = 1#1) (hc1 : ¬ k0_cond2 i = 1#1)
    (x0 : Vec F S200x10000 .f32) (x1 : Vec F S10000x128 .f32) (x2 x3 x4 : Vec F S128x128 .f32) (xi5 xi6 : Vec F S200x128 .f32) (xs : Vec F S10000x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6
            ∗ owns (c : Thread nD τ) arg9 fullShare (filled arg9 harg9 i hc0 (k0_pay1 x0 x1 x2) xs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold filled owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs
  sl_exec (disch := first | exact hc0 | exact hc1)
  sl_step
  rw [load_whole arg2 harg2 x0 zero2, load_whole arg3 harg3 x1 zero2, load_whole arg4 harg4 x2 zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  isplitl [H6]
  · iexists _; isplitr; · ipureintro; exact hf6
    iexact H6
  iexists _; isplitr; swap; · iexact HS
  ipureintro; rfl

set_option maxHeartbeats 1000000 in
/-- THE SECOND PHASE on whole staging memrefs: the inputs at their contents, the two output blocks at anything, the
    scratch at `xs`. The body runs to the continuation with the inputs and the scratch as they were and the two
    output blocks at the two heads of the point's block of rows of A against the scratch. -/
theorem run_heads (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S10000x128 .f32) (harg9 : arg9.IsWhole)
    (hc0 : ¬ k0_cond1 i = 1#1) (hc1 : k0_cond2 i = 1#1)
    (x0 : Vec F S200x10000 .f32) (x1 : Vec F S10000x128 .f32) (x2 x3 x4 : Vec F S128x128 .f32) (xs : Vec F S10000x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 x0 xs x3) ∗ owns (c : Thread nD τ) arg8 fullShare (k0_pay4 x0 xs x4)
            ∗ owns (c : Thread nD τ) arg9 fullShare xs) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs
  sl_exec (disch := first | exact hc0 | exact hc1)
  sl_step
  rw [load_whole arg2 harg2 x0 zero2, load_whole arg9 harg9 xs zero2, load_whole arg5 harg5 x3 zero2, load_whole arg6 harg6 x4 zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact store_whole arg7.view f5 zero2 _ _
  isplitl [H6]
  · iexists _; isplitr; swap; · iexact H6
    ipureintro; exact store_whole arg8.view f6 zero2 _ _
  iexists _; isplitr; · ipureintro; exact harg9.read_unread _
  iexact HS

end Cert.KernelIdeal.Body

end
-- ==== Proof.Run.lean ====
/-
  The kernel's run with everything it leaves NAMED, at any float instance.

  The grid has 100 points, t = 50 · phase + i. Through the first phase (t < 50) point t stores the rectified first
  layer of rows [200 t, 200 t + 200) — `hiddenBlock t` — into those rows of the scratch; through the second
  (50 ≤ t) the scratch is only read. So before point n the scratch agrees with the whole hidden layer `hfull` on
  the rows below 200 · min n 50, whatever it held at launch: that is the invariant (`Good`, `PhiH`), and from
  point 50 on the scratch IS `hfull`. The two output blocks are idle through the first phase and at each point t
  of the second are the two heads of the point's rows of A against `hfull`. With this proof data the library's
  launch theorem gives the run (`run_main`) and, forgetting the outputs, the frame (`frame`).
-/
import proofs.«175781_g85864986181826_cont_sun_m_356_4_alg».proof.Proof.Body
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, decided once -/

/-- The first conditional of the body holds exactly at the points of the first phase, -/
theorem first_phase_iff : ∀ t : Fin cfg0.N, k0_cond1 (grid0.coords t) = 1#1 ↔ t.val < 50 :=
  (by decide +kernel : ∀ t : Fin grid0.N, k0_cond1 (grid0.coords t) = 1#1 ↔ t.val < 50)
/-- the second exactly at those of the second phase. -/
theorem second_phase_iff : ∀ t : Fin cfg0.N, k0_cond2 (grid0.coords t) = 1#1 ↔ 50 ≤ t.val :=
  (by decide +kernel : ∀ t : Fin grid0.N, k0_cond2 (grid0.coords t) = 1#1 ↔ 50 ≤ t.val)
/-- Point t of the first phase stores at row 200 t, column 0 of the scratch. -/
theorem fill_rows : ∀ t : Fin cfg0.N, t.val < 50 → k0_off1 (grid0.coords t) = ![200 * t.val, 0] := by decide +kernel

/-- The inputs are live at every point. -/
theorem in_live0 : ∀ t : Fin cfg0.N, cfg0.idle 0 (grid0.coords t) = false := by decide +kernel
theorem in_live1 : ∀ t : Fin cfg0.N, cfg0.idle 1 (grid0.coords t) = false := by decide +kernel
theorem in_live2 : ∀ t : Fin cfg0.N, cfg0.idle 2 (grid0.coords t) = false := by decide +kernel
theorem in_live3 : ∀ t : Fin cfg0.N, cfg0.idle 3 (grid0.coords t) = false := by decide +kernel
theorem in_live4 : ∀ t : Fin cfg0.N, cfg0.idle 4 (grid0.coords t) = false := by decide +kernel
/-- Output window 5 is idle through the first phase, -/
theorem out5_idle : ∀ t : Fin cfg0.N, t.val < 50 → cfg0.idle 5 (grid0.coords t) = true := by decide +kernel
/-- is not written back there, -/
theorem out5_kept : ∀ t : Fin cfg0.N, t.val < 50 → (cfg0.win 5).flush t = false := by decide +kernel
/-- and is live through the second. -/
theorem out5_live : ∀ t : Fin cfg0.N, 50 ≤ t.val → cfg0.idle 5 (grid0.coords t) = false := by decide +kernel
/-- Output window 6 is idle through the first phase, -/
theorem out6_idle : ∀ t : Fin cfg0.N, t.val < 50 → cfg0.idle 6 (grid0.coords t) = true := by decide +kernel
/-- is not written back there, -/
theorem out6_kept : ∀ t : Fin cfg0.N, t.val < 50 → (cfg0.win 6).flush t = false := by decide +kernel
/-- and is live through the second. -/
theorem out6_live : ∀ t : Fin cfg0.N, 50 ≤ t.val → cfg0.idle 6 (grid0.coords t) = false := by decide +kernel

theorem N100 : cfg0.N = 100 := N_0

/-! ## The staging memrefs and the scratch -/

abbrev buf0 (t : Fin cfg0.N) : Memref sig .tc .vmem S200x10000 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S10000x128 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S128x128 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S128x128 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S128x128 .f32 := win0_4.stage (cfg0.slots t 4)
abbrev whole4 (t : Fin cfg0.N) : (buf4 t).IsWhole := hstage0_4 ((cfg0.slots t 4).cast nbuf0_4)
abbrev buf5 (t : Fin cfg0.N) : Memref sig .tc .vmem S200x128 .f32 := win0_5.stage (cfg0.slots t 5)
abbrev whole5 (t : Fin cfg0.N) : (buf5 t).IsWhole := hstage0_5 ((cfg0.slots t 5).cast nbuf0_5)
abbrev buf6 (t : Fin cfg0.N) : Memref sig .tc .vmem S200x128 .f32 := win0_6.stage (cfg0.slots t 6)
abbrev whole6 (t : Fin cfg0.N) : (buf6 t).IsWhole := hstage0_6 ((cfg0.slots t 6).cast nbuf0_6)
/-- The scratch: a whole scoped buffer of the kernel's own. -/
abbrev scr : Memref sig .tc .vmem S10000x128 .f32 := Memref.whole cc0_scratch0

/-- What the launch hands the region besides the windows: the scratch at some contents and the generator register. -/
theorem region_rest (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The hidden layer as the body computes it -/

/-- The rectified first layer of the 200 rows of A staged at point `b`. -/
def hiddenBlock (c : Dev nD) (b : Fin cfg0.N) : Vec F S200x128 .f32 :=
  k0_pay1 (iblk m c 0 b) (iblk m c 1 b) (iblk m c 2 b)

/-- The whole hidden layer: row r is row r % 200 of the block of point r / 200. -/
def hfull (c : Dev nD) : Vec F S10000x128 .f32 := fun y =>
  hiddenBlock m c ⟨(y 0).val / 200, by
      have h : (y 0).val < 10000 := (y 0).isLt
      have hN : cfg0.N = 100 := N100
      omega⟩
    (ValueIdx.ix2 (⟨(y 0).val % 200, Nat.mod_lt _ (by decide)⟩ : Fin 200) (⟨(y 1).val, (y 1).isLt⟩ : Fin 128))

/-- Contents `d` of the scratch agree with the hidden layer on the blocks of rows stored before point `n`. -/
def Good (c : Dev nD) (n : ℕ) (d : Vec F S10000x128 .f32) : Prop :=
  ∀ b : Fin cfg0.N, b.val < 50 → b.val < n → ∀ (y : S10000x128.Idx) (x : S200x128.Idx),
    (y 0).val = 200 * b.val + (x 0).val → (y 1).val = (x 1).val → d y = hiddenBlock m c b x

theorem good_zero (c : Dev nD) (d : Vec F S10000x128 .f32) : Good m c 0 d :=
  fun _ _ h => absurd h (Nat.not_lt_zero _)

/-- Once all fifty blocks are stored the scratch is the hidden layer. -/
theorem good_full (c : Dev nD) {n : ℕ} {d : Vec F S10000x128 .f32} (h : Good m c n d) (hn : 50 ≤ n) : d = hfull m c := by
  funext y
  have hy : (y 0).val < 10000 := (y 0).isLt
  have hN : cfg0.N = 100 := N100
  refine h ⟨(y 0).val / 200, by omega⟩ (by show (y 0).val / 200 < 50; omega) (by show (y 0).val / 200 < n; omega) y _ ?_ ?_
  · show (y 0).val = 200 * ((y 0).val / 200) + (y 0).val % 200
    omega
  · rfl

/-- Nothing is stored into the scratch through the second phase. -/
theorem good_later (c : Dev nD) {n : ℕ} {d : Vec F S10000x128 .f32} (h : Good m c n d) (hn : 50 ≤ n) : Good m c (n + 1) d :=
  fun b hb _ => h b hb (by omega)

/-- A point of the first phase stores its block over what was there: the earlier blocks stay, its own is added. -/
theorem good_step (c : Dev nD) (t : Fin cfg0.N) (ht : t.val < 50) (hc0 : k0_cond1 (grid0.coords t) = 1#1)
    {d : Vec F S10000x128 .f32} (h : Good m c t.val d) :
    Good m c (t.val + 1) (filled scr (Memref.isWhole_whole _) (grid0.coords t) hc0 (hiddenBlock m c t) d) := by
  intro b hb hbt y x h0 h1
  by_cases hbt' : b.val < t.val
  · rw [filled_of_not_mem scr _ _ hc0 _ d (fill_rows t ht) y (Or.inl (by
      have hx : (x 0).val < 200 := (x 0).isLt
      omega))]
    exact h b hb hbt' y x h0 h1
  · have hbe : b = t := Fin.ext (by omega)
    subst hbe
    exact filled_of_mem scr _ _ hc0 _ d (fill_rows b ht) y x h0 h1

/-- The region invariant before point `n`: the scratch at contents good up to `n`, and the generator register. -/
def PhiH (c : Dev nD) (n : ℕ) : sProp 𝕄 :=
  iprop(∃ d, ⌜Good m c n d⌝ ∗ owns (c : Thread nD τ) scr fullShare d ∗ (∃ r, prngReg c r))

/-! ## The proof data -/

/-- On core `c`: the arrays as the region finds them; after the body each input's buffer at its block, the two
    outputs' at the two heads of the point's rows of A against the hidden layer (read only at the points of the second
    phase: through the first the windows are idle); the invariant `PhiH`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (hfull m c) (iblk m c 3 t)
    | ⟨6, _⟩ => k0_pay4 (iblk m c 0 t) (hfull m c) (iblk m c 4 t)
  Φ t := PhiH m c t.val
  q _ := fullShare
  owed _ := 0

theorem arrays_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out5 (c : Dev nD) (t : Fin cfg0.N) : (dats m 0 c).after 5 t = k0_pay3 (iblk m c 0 t) (hfull m c) (iblk m c 3 t) := by dsimp only [dats]
theorem after_out6 (c : Dev nD) (t : Fin cfg0.N) : (dats m 0 c).after 6 t = k0_pay4 (iblk m c 0 t) (hfull m c) (iblk m c 4 t) := by dsimp only [dats]

theorem before_in0 (c : Dev nD) (t : Fin cfg0.N) (d) : (dats m 0 c).before 0 t d = iblk m c 0 t :=
  before0_0_of m (dats m 0 c) (arrays_eq m c 0) (after_in0 m c) t d
theorem before_in1 (c : Dev nD) (t : Fin cfg0.N) (d) : (dats m 0 c).before 1 t d = iblk m c 1 t :=
  before0_1_of m (dats m 0 c) (arrays_eq m c 1) (after_in1 m c) t d
theorem before_in2 (c : Dev nD) (t : Fin cfg0.N) (d) : (dats m 0 c).before 2 t d = iblk m c 2 t :=
  before0_2_of m (dats m 0 c) (arrays_eq m c 2) (after_in2 m c) t d
theorem before_in3 (c : Dev nD) (t : Fin cfg0.N) (d) : (dats m 0 c).before 3 t d = iblk m c 3 t :=
  before0_3_of m (dats m 0 c) (arrays_eq m c 3) (after_in3 m c) t d
theorem before_in4 (c : Dev nD) (t : Fin cfg0.N) (d) : (dats m 0 c).before 4 t d = iblk m c 4 t :=
  before0_4_of m (dats m 0 c) (arrays_eq m c 4) (after_in4 m c) t d

theorem inv_start (c : Dev nD) (t : Fin cfg0.N) : (dats m 0 c).Φ t.castSucc = PhiH m c t.val := by
  dsimp only [dats]; simp only [Fin.coe_castSucc]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. In the first phase the invariant hands over the scratch good up to `t` and takes it back
    `filled` with the point's block, good up to `t + 1`; the idle outputs pass through untouched. In the second
    phase the scratch is the whole hidden layer, so the two heads the body stores are the proof data's. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).owesAt () t.succ = (dats m 0 c).owesAt () t.castSucc from rfl]
  rw [show (dats m 0 c).Φ t.succ = PhiH m c (t.val + 1) from rfl, inv_start m c t]
  unfold PhiH
  have hN : t.val < 100 := lt_of_lt_of_eq t.isLt N100
  by_cases h : t.val < 50
  · have hc0 : k0_cond1 (grid0.coords t) = 1#1 := (first_phase_iff t).mpr h
    have hc1 : ¬ k0_cond2 (grid0.coords t) = 1#1 := fun h' => absurd ((second_phase_iff t).mp h') (by omega)
    rw [show (dats m 0 c).leavesExact 0 t = owns (c : Thread nD τ) (buf0 t) fullShare ((dats m 0 c).after 0 t) from by
      unfold Dat.leavesExact; rw [in_live0 t], after_in0]
    rw [show (dats m 0 c).leavesExact 1 t = owns (c : Thread nD τ) (buf1 t) fullShare ((dats m 0 c).after 1 t) from by
      unfold Dat.leavesExact; rw [in_live1 t], after_in1]
    rw [show (dats m 0 c).leavesExact 2 t = owns (c : Thread nD τ) (buf2 t) fullShare ((dats m 0 c).after 2 t) from by
      unfold Dat.leavesExact; rw [in_live2 t], after_in2]
    rw [show (dats m 0 c).leavesExact 3 t = owns (c : Thread nD τ) (buf3 t) fullShare ((dats m 0 c).after 3 t) from by
      unfold Dat.leavesExact; rw [in_live3 t], after_in3]
    rw [show (dats m 0 c).leavesExact 4 t = owns (c : Thread nD τ) (buf4 t) fullShare ((dats m 0 c).after 4 t) from by
      unfold Dat.leavesExact; rw [in_live4 t], after_in4]
    rw [Dat.leavesExact_idle (dats m 0 c) 5 t (out5_idle t h) (out5_kept t h),
      Dat.leavesExact_idle (dats m 0 c) 6 t (out6_idle t h) (out6_kept t h)]
    iintro ⟨⟨%d, %hd, HS, Hg⟩, Ho, ⟨%d0, H0⟩, ⟨%d1, H1⟩, ⟨%d2, H2⟩, ⟨%d3, H3⟩, ⟨%d4, H4⟩, ⟨%d5, H5⟩, ⟨%d6, H6⟩⟩
    iapply (run_fill c (grid0.coords t) _ (whole0 t) _ (whole1 t) _ (whole2 t) _ (whole3 t) _ (whole4 t) _ (whole5 t) _ (whole6 t) scr (Memref.isWhole_whole _)
      hc0 hc1 (iblk m c 0 t) (iblk m c 1 t) (iblk m c 2 t) (iblk m c 3 t) (iblk m c 4 t)
      ((dats m 0 c).before 5 t d5) ((dats m 0 c).before 6 t d6) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · iexists _
      isplitr
      · ipureintro; exact good_step m c t h hc0 hd
      isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have h' : 50 ≤ t.val := Nat.le_of_not_lt h
    have hc0 : ¬ k0_cond1 (grid0.coords t) = 1#1 := fun h'' => h ((first_phase_iff t).mp h'')
    have hc1 : k0_cond2 (grid0.coords t) = 1#1 := (second_phase_iff t).mpr h'
    rw [show (dats m 0 c).leavesExact 0 t = owns (c : Thread nD τ) (buf0 t) fullShare ((dats m 0 c).after 0 t) from by
      unfold Dat.leavesExact; rw [in_live0 t], after_in0]
    rw [show (dats m 0 c).leavesExact 1 t = owns (c : Thread nD τ) (buf1 t) fullShare ((dats m 0 c).after 1 t) from by
      unfold Dat.leavesExact; rw [in_live1 t], after_in1]
    rw [show (dats m 0 c).leavesExact 2 t = owns (c : Thread nD τ) (buf2 t) fullShare ((dats m 0 c).after 2 t) from by
      unfold Dat.leavesExact; rw [in_live2 t], after_in2]
    rw [show (dats m 0 c).leavesExact 3 t = owns (c : Thread nD τ) (buf3 t) fullShare ((dats m 0 c).after 3 t) from by
      unfold Dat.leavesExact; rw [in_live3 t], after_in3]
    rw [show (dats m 0 c).leavesExact 4 t = owns (c : Thread nD τ) (buf4 t) fullShare ((dats m 0 c).after 4 t) from by
      unfold Dat.leavesExact; rw [in_live4 t], after_in4]
    rw [show (dats m 0 c).leavesExact 5 t = owns (c : Thread nD τ) (buf5 t) fullShare ((dats m 0 c).after 5 t) from by
      unfold Dat.leavesExact; rw [out5_live t h'], after_out5]
    rw [show (dats m 0 c).leavesExact 6 t = owns (c : Thread nD τ) (buf6 t) fullShare ((dats m 0 c).after 6 t) from by
      unfold Dat.leavesExact; rw [out6_live t h'], after_out6]
    iintro ⟨⟨%d, %hd, HS, Hg⟩, Ho, ⟨%d0, H0⟩, ⟨%d1, H1⟩, ⟨%d2, H2⟩, ⟨%d3, H3⟩, ⟨%d4, H4⟩, ⟨%d5, H5⟩, ⟨%d6, H6⟩⟩
    obtain rfl : d = hfull m c := good_full m c hd h'
    iapply (run_heads c (grid0.coords t) _ (whole0 t) _ (whole1 t) _ (whole2 t) _ (whole3 t) _ (whole4 t) _ (whole5 t) _ (whole6 t) scr (Memref.isWhole_whole _)
      hc0 hc1 (iblk m c 0 t) (iblk m c 1 t) (iblk m c 2 t) (iblk m c 3 t) (iblk m c 4 t) (hfull m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · iexists _
      isplitr
      · ipureintro; exact good_later m c hd h'
      isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact body_at m c t

/-- What the launch hands the region is the invariant before the first point: nothing is asked of the scratch yet. -/
theorem inv_in (c : Dev nD) : Pipeline.ΦA spec0 c ⊢ (dats m 0 c).Φ 0 := by
  rw [show (dats m 0 c).Φ 0 = PhiH m c 0 from rfl, region_rest]
  unfold PhiH
  iintro ⟨⟨%d, HS⟩, Hg⟩
  iexists d
  isplitr
  · ipureintro; exact good_zero m c d
  isplitl [HS]
  · iexact HS
  iexact Hg

/-- After the last point the invariant gives it back: what the scratch holds is forgotten. -/
theorem inv_out (c : Dev nD) : (dats m 0 c).Φ (Fin.last cfg0.N) ⊢ Pipeline.ΦA spec0 c := by
  rw [show (dats m 0 c).Φ (Fin.last cfg0.N) = PhiH m c (Fin.last cfg0.N).val from rfl, region_rest]
  unfold PhiH
  iintro ⟨%d, -, HS, Hg⟩
  isplitl [HS]
  · iexists _; iexact HS
  iexact Hg

/-! ## The run and the frame -/

set_option backward.isDefEq.respectTransparency.types false in
/-- Every weakly fair execution of @main terminates, and every final state has every array of the pipeline at what
    the library computes from the proof data — an input unchanged, an output its entry contents overwritten by the
    blocks written back — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arrays_eq m) (hin := inv_in m) (hout := inv_out m)

/-- The frame claim's post, at any float instance: the program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays_eq m) (run_main m ρ)

end Cert.KernelIdeal.Run

end
-- ==== Proof.PayValue.lean ====
/-
The four values the kernel body stores, read at an index, at the ideal values (every float an extended real,
every operation exact).

Write A for a [200, 10000] block of rows of the graph's propagation matrix, H for a [10000, 128] feature matrix and
W for a [128, 128] weight matrix stored [out, in]. Then

* the second payload is the matrix product A · H:            (A · H)[p, k] = ∑ q, A[p, q] * H[q, k];
* the third and fourth payloads are (A · H) · Wᵀ:            ((A · H) · Wᵀ)[p, j] = ∑ k, (A · H)[p, k] * W[j, k];
* the first payload is the rectified product max((A · X) · Wᵀ, 0), the shape cast after it being the identity.

Each matrix product enters as a contraction into a zero accumulator, whose element is the sum over the contraction
index of the operands' products at the operand indices the dimension numbers prescribe; the work below is to read
those operand indices as (p, q), (q, k) for the first product (left axis 1 against right axis 0) and as (p, k),
(j, k) for the second (left axis 1 against right axis 1: the weight is stored [out, in]).
-/
import proofs.«175781_g85864986181826_cont_sun_m_356_4_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PayValue

open Idealize.ShloMosaic Cert.KernelIdeal Cert.KernelIdeal.Gen

/-! ## The first product: [200, 10000] · [10000, 128], left axis 1 against right axis 0 -/

/-- The left operand's row is the output's row. -/
theorem lhsA_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column is the contraction position. -/
theorem lhsA_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's row is the contraction position. -/
theorem rhsA_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's column is the output's column. -/
theorem rhsA_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The first product into a zero accumulator, at (p, k): ∑ q, a[p, q] * h[q, k]. -/
theorem dotA_apply (a : FVec Ideal S200x10000 .f32) (h : FVec Ideal S10000x128 .f32) (p : Fin 200) (k : Fin 128) :
    matmul dot_S200x10000_S10000x128_S200x128_1_0_0_1_n_n none a h (constant (F := Ideal) S200x128 .f32 0x00000000#32) (ValueIdx.ix2 p k)
      = ∑ q : Fin 10000, a (ValueIdx.ix2 p q) * h (ValueIdx.ix2 q k) := by
  refine (Ideal.matmul_constant_zero_apply dot_S200x10000_S10000x128_S200x128_1_0_0_1_n_n none a h (ValueIdx.ix2 p k)).trans ?_
  rw [← Equiv.sum_comp (ValueIdx.contrEquiv1 dot_S200x10000_S10000x128_S200x128_1_0_0_1_n_n 10000 rfl rfl).symm]
  refine Finset.sum_congr rfl fun q _ => ?_
  have hq := ValueIdx.contrEquiv1_symm_val dot_S200x10000_S10000x128_S200x128_1_0_0_1_n_n 10000 rfl rfl q
  have el : dot_S200x10000_S10000x128_S200x128_1_0_0_1_n_n.lhsIdx (ValueIdx.ix2 p k) ((ValueIdx.contrEquiv1 dot_S200x10000_S10000x128_S200x128_1_0_0_1_n_n 10000 rfl rfl).symm q) = ValueIdx.ix2 p q := funext fun b => Fin.ext (by
    match b with
    | ⟨0, _⟩ => exact lhsA_0 _ _
    | ⟨1, _⟩ => exact (lhsA_1 _ _).trans hq)
  have er : dot_S200x10000_S10000x128_S200x128_1_0_0_1_n_n.rhsIdx (ValueIdx.ix2 p k) ((ValueIdx.contrEquiv1 dot_S200x10000_S10000x128_S200x128_1_0_0_1_n_n 10000 rfl rfl).symm q) = ValueIdx.ix2 q k := funext fun b => Fin.ext (by
    match b with
    | ⟨0, _⟩ => exact (rhsA_0 _ _).trans hq
    | ⟨1, _⟩ => exact rhsA_1 _ _)
  rw [el, er]

/-! ## The second product: [200, 128] · [128, 128]ᵀ, left axis 1 against right axis 1 -/

/-- The left operand's row is the output's row. -/
theorem lhsW_0 (i : S200x128.Idx) (q : dot_S200x128_S128x128_S200x128_1_1_0_0_n_n.contr.Idx) :
    (dot_S200x128_S128x128_S200x128_1_1_0_0_n_n.lhsIdx i q 0).val = (i 0).val := by
  unfold DotDims.lhsIdx
  rw [dif_neg (show ¬(0 : Fin S200x128.rank) ∈ dot_S200x128_S128x128_S200x128_1_1_0_0_n_n.lhsBatch by decide), dif_pos (show (0 : Fin S200x128.rank) ∈ dot_S200x128_S128x128_S200x128_1_1_0_0_n_n.lhsNonContracting by decide)]
  rfl
/-- The left operand's column is the contraction position. -/
theorem lhsW_1 (i : S200x128.Idx) (q : dot_S200x128_S128x128_S200x128_1_1_0_0_n_n.contr.Idx) :
    (dot_S200x128_S128x128_S200x128_1_1_0_0_n_n.lhsIdx i q 1).val = (q ⟨0, by decide⟩).val :=
  dot_S200x128_S128x128_S200x128_1_1_0_0_n_n.lhsIdx_val_of_single rfl i q
/-- The weight's row (its output axis) is the output's column. -/
theorem rhsW_0 (i : S200x128.Idx) (q : dot_S200x128_S128x128_S200x128_1_1_0_0_n_n.contr.Idx) :
    (dot_S200x128_S128x128_S200x128_1_1_0_0_n_n.rhsIdx i q 0).val = (i 1).val := by
  unfold DotDims.rhsIdx
  rw [dif_neg (show ¬(0 : Fin S128x128.rank) ∈ dot_S200x128_S128x128_S200x128_1_1_0_0_n_n.rhsBatch by decide), dif_pos (show (0 : Fin S128x128.rank) ∈ dot_S200x128_S128x128_S200x128_1_1_0_0_n_n.rhsNonContracting by decide)]
  rfl
/-- The weight's column (its input axis) is the contraction position. -/
theorem rhsW_1 (i : S200x128.Idx) (q : dot_S200x128_S128x128_S200x128_1_1_0_0_n_n.contr.Idx) :
    (dot_S200x128_S128x128_S200x128_1_1_0_0_n_n.rhsIdx i q 1).val = (q ⟨0, by decide⟩).val :=
  dot_S200x128_S128x128_S200x128_1_1_0_0_n_n.rhsIdx_val_of_single rfl i q

/-- The second product into a zero accumulator, at (p, j): ∑ k, y[p, k] * w[j, k]. -/
theorem dotW_apply (y : FVec Ideal S200x128 .f32) (w : FVec Ideal S128x128 .f32) (p : Fin 200) (j : Fin 128) :
    matmul dot_S200x128_S128x128_S200x128_1_1_0_0_n_n none y w (constant (F := Ideal) S200x128 .f32 0x00000000#32) (ValueIdx.ix2 p j)
      = ∑ k : Fin 128, y (ValueIdx.ix2 p k) * w (ValueIdx.ix2 j k) := by
  refine (Ideal.matmul_constant_zero_apply dot_S200x128_S128x128_S200x128_1_1_0_0_n_n none y w (ValueIdx.ix2 p j)).trans ?_
  rw [← Equiv.sum_comp (ValueIdx.contrEquiv1 dot_S200x128_S128x128_S200x128_1_1_0_0_n_n 128 rfl rfl).symm]
  refine Finset.sum_congr rfl fun k _ => ?_
  have hk := ValueIdx.contrEquiv1_symm_val dot_S200x128_S128x128_S200x128_1_1_0_0_n_n 128 rfl rfl k
  have el : dot_S200x128_S128x128_S200x128_1_1_0_0_n_n.lhsIdx (ValueIdx.ix2 p j) ((ValueIdx.contrEquiv1 dot_S200x128_S128x128_S200x128_1_1_0_0_n_n 128 rfl rfl).symm k) = ValueIdx.ix2 p k := funext fun b => Fin.ext (by
    match b with
    | ⟨0, _⟩ => exact lhsW_0 _ _
    | ⟨1, _⟩ => exact (lhsW_1 _ _).trans hk)
  have er : dot_S200x128_S128x128_S200x128_1_1_0_0_n_n.rhsIdx (ValueIdx.ix2 p j) ((ValueIdx.contrEquiv1 dot_S200x128_S128x128_S200x128_1_1_0_0_n_n 128 rfl rfl).symm k) = ValueIdx.ix2 j k := funext fun b => Fin.ext (by
    match b with
    | ⟨0, _⟩ => exact rhsW_0 _ _
    | ⟨1, _⟩ => exact (rhsW_1 _ _).trans hk)
  rw [el, er]

/-! ## The payloads -/

/-- The second payload is A · H. -/
theorem pay2_apply (a : Vec Ideal S200x10000 .f32) (h : Vec Ideal S10000x128 .f32) (p : Fin 200) (k : Fin 128) :
    k0_pay2 (F := Ideal) a h (ValueIdx.ix2 p k) = ∑ q : Fin 10000, a (ValueIdx.ix2 p q) * h (ValueIdx.ix2 q k) := by
  unfold k0_pay2
  exact dotA_apply a h p k

/-- The third payload is (A · H) · Wᵀ. -/
theorem pay3_apply (a : Vec Ideal S200x10000 .f32) (h : Vec Ideal S10000x128 .f32) (w : Vec Ideal S128x128 .f32) (p : Fin 200) (j : Fin 128) :
    k0_pay3 (F := Ideal) a h w (ValueIdx.ix2 p j)
      = ∑ k : Fin 128, (∑ q : Fin 10000, a (ValueIdx.ix2 p q) * h (ValueIdx.ix2 q k)) * w (ValueIdx.ix2 j k) := by
  unfold k0_pay3
  refine (dotW_apply (k0_pay2 (F := Ideal) a h) w p j).trans ?_
  refine Finset.sum_congr rfl fun k _ => ?_
  rw [pay2_apply a h p k]

/-- The fourth payload is (A · H) · Wᵀ for the other head's weight. -/
theorem pay4_apply (a : Vec Ideal S200x10000 .f32) (h : Vec Ideal S10000x128 .f32) (w : Vec Ideal S128x128 .f32) (p : Fin 200) (j : Fin 128) :
    k0_pay4 (F := Ideal) a h w (ValueIdx.ix2 p j)
      = ∑ k : Fin 128, (∑ q : Fin 10000, a (ValueIdx.ix2 p q) * h (ValueIdx.ix2 q k)) * w (ValueIdx.ix2 j k) := by
  unfold k0_pay4
  refine (dotW_apply (k0_pay2 (F := Ideal) a h) w p j).trans ?_
  refine Finset.sum_congr rfl fun k _ => ?_
  rw [pay2_apply a h p k]

/-- The first payload is max((A · X) · Wᵀ, 0): the shape cast to the same shape is the identity, the broadcast scalar
    is the zero word, and the maximum is taken element by element. -/
theorem pay1_apply (a : Vec Ideal S200x10000 .f32) (x : Vec Ideal S10000x128 .f32) (w : Vec Ideal S128x128 .f32) (p : Fin 200) (k : Fin 128) :
    k0_pay1 (F := Ideal) a x w (ValueIdx.ix2 p k)
      = max (∑ l : Fin 128, (∑ s : Fin 10000, a (ValueIdx.ix2 p s) * x (ValueIdx.ix2 s l)) * w (ValueIdx.ix2 k l)) 0 := by
  unfold k0_pay1
  rw [shapeCast_self]
  refine (ValueIdx.maximumf_apply _ _ (ValueIdx.ix2 p k)).trans ?_
  rw [ValueIdx.broadcast_apply]
  refine congrArg₂ max ?_ Ideal.ofBits_zero_f32
  refine (dotW_apply _ w p k).trans ?_
  refine Finset.sum_congr rfl fun l _ => ?_
  rw [dotA_apply a x p l]

end Cert.KernelIdeal.PayValue

end
-- ==== Proof.BlockReads.lean ====
/-
Each input block the pipeline stages, read at an index, is an entry of the argument array as the region finds it.

The grid has 100 points; point t is (phase, i) with phase = t / 50 and i = t % 50. The first window stages, at point t,
the block of the 200 rows [200·i, 200·i + 200) of the 10000 × 10000 matrix: its entry (p, q) is the matrix's entry
(200·i + p, q). The other four input windows stage a whole array at every point (the 10000 × 128 features and the
three 128 × 128 weights): their block index is zero on both axes, so the block's entry at an index is the array's entry
at the same index.

An element of a block sits in its array, on each axis, at (block index) × (block size) + (its coordinate in the block);
the block indices are the printed index maps, whose values at every grid point are decided once over the grid.
-/
import proofs.«175781_g85864986181826_cont_sun_m_356_4_alg».proof.Proof.Gen.KernelIdeal.Frame
import Idealize.ShloMosaic.Lib.Pipeline.Value
import Idealize.ShloMosaic.Lib.ValueIdx

noncomputable section

namespace Cert.KernelIdeal.BlockReads

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The printed index maps at every grid point: the first window's block index is (t % 50, 0); the other four input
    windows' is (0, 0). -/
theorem index_facts : ∀ t : Fin cfg0.N,
    win0_0.index t (0 : Fin 2) = t.val % 50 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first window's block at point t holds rows 200·(t % 50) … 200·(t % 50) + 199 of the matrix. -/
theorem adj_block (c : Dev nD) (t : Fin cfg0.N) (p : Fin 200) (q r : Fin 10000) (hr : r.val = 200 * (t.val % 50) + p.val) :
    (iblk m c 0 t : Vec F S200x10000 .f32) (ValueIdx.ix2 p q) = (V m c main_arg1 : S10000x10000.Idx → Elt F .f32) (ValueIdx.ix2 r q) := by
  obtain ⟨e0, e1, -⟩ := index_facts t
  unfold iblk
  rw [View.read_apply]
  show V m c main_arg1 _ = V m c main_arg1 _
  refine congrArg (V m c main_arg1) (funext fun a => Fin.ext ?_)
  match a with
  | ⟨0, _⟩ => show win0_0.index t (0 : Fin 2) * 200 + 1 * p.val = r.val; rw [e0, hr]; omega
  | ⟨1, _⟩ => show win0_0.index t (1 : Fin 2) * 10000 + 1 * q.val = q.val; rw [e1]; omega

/-- The second window's block at every point is the whole 10000 × 128 feature array. -/
theorem feat_block (c : Dev nD) (t : Fin cfg0.N) (s : Fin 10000) (l : Fin 128) :
    (iblk m c 1 t : Vec F S10000x128 .f32) (ValueIdx.ix2 s l) = (V m c main_arg0 : S10000x128.Idx → Elt F .f32) (ValueIdx.ix2 s l) := by
  obtain ⟨-, -, e0, e1, -⟩ := index_facts t
  unfold iblk
  rw [View.read_apply]
  show V m c main_arg0 _ = V m c main_arg0 _
  refine congrArg (V m c main_arg0) (funext fun a => Fin.ext ?_)
  match a with
  | ⟨0, _⟩ => show win0_1.index t (0 : Fin 2) * 10000 + 1 * s.val = s.val; rw [e0]; omega
  | ⟨1, _⟩ => show win0_1.index t (1 : Fin 2) * 128 + 1 * l.val = l.val; rw [e1]; omega

/-- The third window's block at every point is the whole first 128 × 128 weight. -/
theorem w0_block (c : Dev nD) (t : Fin cfg0.N) (k : Fin 128) (l : Fin 128) :
    (iblk m c 2 t : Vec F S128x128 .f32) (ValueIdx.ix2 k l) = (V m c main_arg2 : S128x128.Idx → Elt F .f32) (ValueIdx.ix2 k l) := by
  obtain ⟨-, -, -, -, e0, e1, -⟩ := index_facts t
  unfold iblk
  rw [View.read_apply]
  show V m c main_arg2 _ = V m c main_arg2 _
  refine congrArg (V m c main_arg2) (funext fun a => Fin.ext ?_)
  match a with
  | ⟨0, _⟩ => show win0_2.index t (0 : Fin 2) * 128 + 1 * k.val = k.val; rw [e0]; omega
  | ⟨1, _⟩ => show win0_2.index t (1 : Fin 2) * 128 + 1 * l.val = l.val; rw [e1]; omega

/-- The fourth window's block at every point is the whole second 128 × 128 weight. -/
theorem w1_block (c : Dev nD) (t : Fin cfg0.N) (k : Fin 128) (l : Fin 128) :
    (iblk m c 3 t : Vec F S128x128 .f32) (ValueIdx.ix2 k l) = (V m c main_arg3 : S128x128.Idx → Elt F .f32) (ValueIdx.ix2 k l) := by
  obtain ⟨-, -, -, -, -, -, e0, e1, -⟩ := index_facts t
  unfold iblk
  rw [View.read_apply]
  show V m c main_arg3 _ = V m c main_arg3 _
  refine congrArg (V m c main_arg3) (funext fun a => Fin.ext ?_)
  match a with
  | ⟨0, _⟩ => show win0_3.index t (0 : Fin 2) * 128 + 1 * k.val = k.val; rw [e0]; omega
  | ⟨1, _⟩ => show win0_3.index t (1 : Fin 2) * 128 + 1 * l.val = l.val; rw [e1]; omega

/-- The fifth window's block at every point is the whole third 128 × 128 weight. -/
theorem wss_block (c : Dev nD) (t : Fin cfg0.N) (k : Fin 128) (l : Fin 128) :
    (iblk m c 4 t : Vec F S128x128 .f32) (ValueIdx.ix2 k l) = (V m c main_arg4 : S128x128.Idx → Elt F .f32) (ValueIdx.ix2 k l) := by
  obtain ⟨-, -, -, -, -, -, -, -, e0, e1⟩ := index_facts t
  unfold iblk
  rw [View.read_apply]
  show V m c main_arg4 _ = V m c main_arg4 _
  refine congrArg (V m c main_arg4) (funext fun a => Fin.ext ?_)
  match a with
  | ⟨0, _⟩ => show win0_4.index t (0 : Fin 2) * 128 + 1 * k.val = k.val; rw [e0]; omega
  | ⟨1, _⟩ => show win0_4.index t (1 : Fin 2) * 128 + 1 * l.val = l.val; rw [e1]; omega

end Cert.KernelIdeal.BlockReads

end
-- ==== Proof.OutArray.lean ====
/-
  The two result arrays after the run, from what each second-phase point leaves in its staging buffer.

  The grid has 100 points t, in two phases of 50: phase t / 50, step t % 50. Each result array is 10000 × 128,
  cut into 50 blocks of 200 rows; the block a point works on has index (phase · step, 0), which is t − 50 in the
  second phase and 0 throughout the first. A block is written back to the array exactly at the points of the
  second phase, 50 ≤ t, and point t writes rows 200 · (t − 50) … 200 · (t − 50) + 199. Row r lies in the block of
  the one point 50 + r / 200, so the 50 written blocks tile the array.

  Hence: if at every second-phase point the staging buffer after the body holds the restriction of ONE
  whole-array function G to that point's rows, the array after the run is G. This is stated for any float
  instance and any proof data over the kernel's pipeline configuration.
-/
import proofs.«175781_g85864986181826_cont_sun_m_356_4_alg».proof.Proof.Gen.KernelIdeal.Frame
import Idealize.ShloMosaic.Lib.Pipeline.Value
import Idealize.ShloMosaic.Lib.ValueIdx

noncomputable section

namespace Cert.KernelIdeal.OutArray

open Idealize.ShloMosaic Idealize.ShloMosaic.TcCoe Idealize.SL.Sem Idealize.ShloMosaic.Pipeline Cert.KernelIdeal Cert.KernelIdeal.Gen
open Idealize.ShloMosaic.ValueIdx

variable {F : FTy → Type} [FloatOps F]

/-! ## The first result array (output window 5) -/

/-- Decided once over the 100 grid points: window 5's block is written back exactly in the second phase, and its
    block index is (t − 50, 0) (the truncated difference: 0 throughout the first phase). -/
theorem out_points : ∀ t : Fin cfg0.N, ((cfg0.win 5).flush t = true ↔ 50 ≤ t.val)
    ∧ win0_5.index t (0 : Fin 2) = t.val - 50 ∧ win0_5.index t (1 : Fin 2) = 0 :=
  (by decide +kernel : ∀ t : Fin grid0.N, (win0_5.flush t = true ↔ 50 ≤ t.val)
    ∧ win0_5.index t (0 : Fin 2) = t.val - 50 ∧ win0_5.index t (1 : Fin 2) = 0)

/-- An index of the array is in point `t`'s block iff each coordinate is in the block's range on its axis. -/
theorem out_mem_block (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v0_0).slice (win0_5.rect t)).set ↔ _
  rw [View.set_slice_whole, Rect.mem_set_unit]
  exact Iff.rfl

/-- What a second-phase point writes back is its block of `G`: row `p` of the block is row 200 · (t − 50) + p of the array. -/
theorem out_flushed_eq {c : Dev nD} (dat : Pipeline.Dat τ (Elt F) Unit ℕ (UR sig nD τ) ℕ cfg0 c)
    (G : Buf (Elt F) ((cfg0.win 5).arr.view.loc (c.tc : Thread nD τ)))
    (h : ∀ (t : Fin cfg0.N), 50 ≤ t.val → ∀ (p : Fin 200) (j : Fin 128) (r : Fin 10000), r.val = 200 * (t.val - 50) + p.val →
      dat.after 5 t (ix2 p j) = G (ix2 r j))
    (t : Fin cfg0.N) (hf : (cfg0.win 5).flush t = true) :
    dat.flushed 5 t = ((cfg0.win 5).blk t).view.read (Elt F) G := by
  obtain ⟨hfl, e0, e1⟩ := out_points t
  have ht : 50 ≤ t.val := hfl.mp hf
  have hN : t.val < 100 := lt_of_lt_of_eq t.isLt N_0
  funext y
  show dat.after 5 t y = G (((cfg0.win 5).blk t).view.emb y)
  obtain ⟨p, j, rfl⟩ : ∃ (p : Fin 200) (j : Fin 128), y = ix2 p j := ⟨y 0, y 1, eq_ix2 y⟩
  have hr : 200 * (t.val - 50) + p.val < 10000 := by have := p.isLt; omega
  rw [h t ht p j ⟨200 * (t.val - 50) + p.val, hr⟩ rfl]
  refine congrArg G ?_
  funext a
  apply Fin.ext
  match a with
  | ⟨0, _⟩ => show 200 * (t.val - 50) + p.val = win0_5.index t (0 : Fin 2) * 200 + 1 * p.val; rw [e0]; omega
  | ⟨1, _⟩ => show j.val = win0_5.index t (1 : Fin 2) * 128 + 1 * j.val; rw [e1]; omega

/-- The written blocks cover the array: row `r` lies in the block of point 50 + r / 200. -/
theorem out_cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hlt : 50 + (i 0).val / 200 < cfg0.N := lt_of_lt_of_eq (by omega : 50 + (i 0).val / 200 < 100) N_0.symm
  obtain ⟨hfl, e0, e1⟩ := out_points ⟨50 + (i 0).val / 200, hlt⟩
  have e0' : win0_5.index ⟨50 + (i 0).val / 200, hlt⟩ (0 : Fin 2) = 50 + (i 0).val / 200 - 50 := e0
  refine ⟨⟨50 + (i 0).val / 200, hlt⟩, hfl.mpr (Nat.le_add_right 50 _), ?_⟩
  rw [out_mem_block]
  intro a
  match a with
  | ⟨0, _⟩ => show win0_5.index ⟨50 + (i 0).val / 200, hlt⟩ (0 : Fin 2) * 200 ≤ (i 0).val ∧ (i 0).val < win0_5.index ⟨50 + (i 0).val / 200, hlt⟩ (0 : Fin 2) * 200 + 200; rw [e0']; omega
  | ⟨1, _⟩ => show win0_5.index ⟨50 + (i 0).val / 200, hlt⟩ (1 : Fin 2) * 128 ≤ (i 1).val ∧ (i 1).val < win0_5.index ⟨50 + (i 0).val / 200, hlt⟩ (1 : Fin 2) * 128 + 128; rw [e1]; omega

/-- The first result array after the run is `G`. -/
theorem out_array {c : Dev nD} (dat : Pipeline.Dat τ (Elt F) Unit ℕ (UR sig nD τ) ℕ cfg0 c)
    (G : Buf (Elt F) ((cfg0.win 5).arr.view.loc (c.tc : Thread nD τ)))
    (h : ∀ (t : Fin cfg0.N), 50 ≤ t.val → ∀ (p : Fin 200) (j : Fin 128) (r : Fin 10000), r.val = 200 * (t.val - 50) + p.val →
      dat.after 5 t (ix2 p j) = G (ix2 r j)) :
    dat.arrAt 5 cfg0.N = G :=
  dat.arrAt_eq_of_cover 5 G (out_flushed_eq dat G h) out_cover

/-! ## The second result array (output window 6) -/

/-- Decided once over the 100 grid points: window 6's block is written back exactly in the second phase, and its
    block index is (t − 50, 0) (the truncated difference: 0 throughout the first phase). -/
theorem xs_points : ∀ t : Fin cfg0.N, ((cfg0.win 6).flush t = true ↔ 50 ≤ t.val)
    ∧ win0_6.index t (0 : Fin 2) = t.val - 50 ∧ win0_6.index t (1 : Fin 2) = 0 :=
  (by decide +kernel : ∀ t : Fin grid0.N, (win0_6.flush t = true ↔ 50 ≤ t.val)
    ∧ win0_6.index t (0 : Fin 2) = t.val - 50 ∧ win0_6.index t (1 : Fin 2) = 0)

/-- An index of the array is in point `t`'s block iff each coordinate is in the block's range on its axis. -/
theorem xs_mem_block (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v0_1).slice (win0_6.rect t)).set ↔ _
  rw [View.set_slice_whole, Rect.mem_set_unit]
  exact Iff.rfl

/-- What a second-phase point writes back is its block of `G`: row `p` of the block is row 200 · (t − 50) + p of the array. -/
theorem xs_flushed_eq {c : Dev nD} (dat : Pipeline.Dat τ (Elt F) Unit ℕ (UR sig nD τ) ℕ cfg0 c)
    (G : Buf (Elt F) ((cfg0.win 6).arr.view.loc (c.tc : Thread nD τ)))
    (h : ∀ (t : Fin cfg0.N), 50 ≤ t.val → ∀ (p : Fin 200) (j : Fin 128) (r : Fin 10000), r.val = 200 * (t.val - 50) + p.val →
      dat.after 6 t (ix2 p j) = G (ix2 r j))
    (t : Fin cfg0.N) (hf : (cfg0.win 6).flush t = true) :
    dat.flushed 6 t = ((cfg0.win 6).blk t).view.read (Elt F) G := by
  obtain ⟨hfl, e0, e1⟩ := xs_points t
  have ht : 50 ≤ t.val := hfl.mp hf
  have hN : t.val < 100 := lt_of_lt_of_eq t.isLt N_0
  funext y
  show dat.after 6 t y = G (((cfg0.win 6).blk t).view.emb y)
  obtain ⟨p, j, rfl⟩ : ∃ (p : Fin 200) (j : Fin 128), y = ix2 p j := ⟨y 0, y 1, eq_ix2 y⟩
  have hr : 200 * (t.val - 50) + p.val < 10000 := by have := p.isLt; omega
  rw [h t ht p j ⟨200 * (t.val - 50) + p.val, hr⟩ rfl]
  refine congrArg G ?_
  funext a
  apply Fin.ext
  match a with
  | ⟨0, _⟩ => show 200 * (t.val - 50) + p.val = win0_6.index t (0 : Fin 2) * 200 + 1 * p.val; rw [e0]; omega
  | ⟨1, _⟩ => show j.val = win0_6.index t (1 : Fin 2) * 128 + 1 * j.val; rw [e1]; omega

/-- The written blocks cover the array: row `r` lies in the block of point 50 + r / 200. -/
theorem xs_cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hlt : 50 + (i 0).val / 200 < cfg0.N := lt_of_lt_of_eq (by omega : 50 + (i 0).val / 200 < 100) N_0.symm
  obtain ⟨hfl, e0, e1⟩ := xs_points ⟨50 + (i 0).val / 200, hlt⟩
  have e0' : win0_6.index ⟨50 + (i 0).val / 200, hlt⟩ (0 : Fin 2) = 50 + (i 0).val / 200 - 50 := e0
  refine ⟨⟨50 + (i 0).val / 200, hlt⟩, hfl.mpr (Nat.le_add_right 50 _), ?_⟩
  rw [xs_mem_block]
  intro a
  match a with
  | ⟨0, _⟩ => show win0_6.index ⟨50 + (i 0).val / 200, hlt⟩ (0 : Fin 2) * 200 ≤ (i 0).val ∧ (i 0).val < win0_6.index ⟨50 + (i 0).val / 200, hlt⟩ (0 : Fin 2) * 200 + 200; rw [e0']; omega
  | ⟨1, _⟩ => show win0_6.index ⟨50 + (i 0).val / 200, hlt⟩ (1 : Fin 2) * 128 ≤ (i 1).val ∧ (i 1).val < win0_6.index ⟨50 + (i 0).val / 200, hlt⟩ (1 : Fin 2) * 128 + 128; rw [e1]; omega

/-- The second result array after the run is `G`. -/
theorem xs_array {c : Dev nD} (dat : Pipeline.Dat τ (Elt F) Unit ℕ (UR sig nD τ) ℕ cfg0 c)
    (G : Buf (Elt F) ((cfg0.win 6).arr.view.loc (c.tc : Thread nD τ)))
    (h : ∀ (t : Fin cfg0.N), 50 ≤ t.val → ∀ (p : Fin 200) (j : Fin 128) (r : Fin 10000), r.val = 200 * (t.val - 50) + p.val →
      dat.after 6 t (ix2 p j) = G (ix2 r j)) :
    dat.arrAt 6 cfg0.N = G :=
  dat.arrAt_eq_of_cover 6 G (xs_flushed_eq dat G h) xs_cover

end Cert.KernelIdeal.OutArray

end
-- ==== Proof.Spec.lean ====
/-
  The two-layer graph convolution with two linear heads, as one function of its five argument
  arrays, entry by entry over the extended reals.

  With A the N × N adjacency (N = 10000), X the N × 128 features, W₀, W the 128 × 128 weights stored
  [out, in]:
    aggregate A X      = A · X                       (row r, column l: the sum over s of A r s · X s l)
    hidden A X W₀      = max (aggregate A X · W₀ᵀ) 0  (the rectified first layer)
    mixed A X W₀       = A · hidden A X W₀
    head A X W₀ W      = mixed A X W₀ · Wᵀ
  Both results of the program are `head`, at the second-layer weights and at the self-supervised
  classifier's weights. Every sum is written in the one order both programs use, so no law of
  arithmetic on the extended reals is needed to compare them.
-/
import Idealize.ShloMosaic.PureOps.Ideal

noncomputable section

namespace Cert.Spec

open scoped BigOperators

/-- Row `r`, column `l` of the product A · X. -/
def aggregate (A : Fin 10000 → Fin 10000 → EReal) (X : Fin 10000 → Fin 128 → EReal)
    (r : Fin 10000) (l : Fin 128) : EReal :=
  ∑ s : Fin 10000, A r s * X s l

/-- Row `r`, column `k` of the rectified first layer max ((A · X) · W₀ᵀ) 0. -/
def hidden (A : Fin 10000 → Fin 10000 → EReal) (X : Fin 10000 → Fin 128 → EReal)
    (W0 : Fin 128 → Fin 128 → EReal) (r : Fin 10000) (k : Fin 128) : EReal :=
  max (∑ l : Fin 128, aggregate A X r l * W0 k l) 0

/-- Row `r`, column `k` of A · hidden. -/
def mixed (A : Fin 10000 → Fin 10000 → EReal) (X : Fin 10000 → Fin 128 → EReal)
    (W0 : Fin 128 → Fin 128 → EReal) (r : Fin 10000) (k : Fin 128) : EReal :=
  ∑ q : Fin 10000, A r q * hidden A X W0 q k

/-- Row `r`, column `j` of (A · hidden) · Wᵀ: a linear head on the second aggregation. -/
def head (A : Fin 10000 → Fin 10000 → EReal) (X : Fin 10000 → Fin 128 → EReal)
    (W0 W : Fin 128 → Fin 128 → EReal) (r : Fin 10000) (j : Fin 128) : EReal :=
  ∑ k : Fin 128, mixed A X W0 r k * W j k

end Cert.Spec

end
-- ==== Proof.KernelValue.lean ====
/-
  What the kernel's two result arrays hold after the run, at the extended reals.

  At a point t of the second phase the body leaves, in the block of rows [200 (t − 50), 200 (t − 50) + 200) of a
  result, the product (A_blk · H) · Wᵀ, where A_blk is those rows of the adjacency and H the whole hidden layer the
  first phase assembled block by block. Each block of H is max ((A_blk' · X) · W₀ᵀ) 0 for its own rows of A, so
  entry (q, k) of H is `Spec.hidden` at (q, k), and entry (r, j) of the result is `Spec.head` at (r, j): the same
  sums, term by term, with no rearrangement. The fifty blocks tile the array, so each result array ends as
  `Spec.head` of the five argument arrays at its own weights.
-/
import proofs.«175781_g85864986181826_cont_sun_m_356_4_alg».proof.Proof.Run
import proofs.«175781_g85864986181826_cont_sun_m_356_4_alg».proof.Proof.PayValue
import proofs.«175781_g85864986181826_cont_sun_m_356_4_alg».proof.Proof.BlockReads
import proofs.«175781_g85864986181826_cont_sun_m_356_4_alg».proof.Proof.OutArray
import proofs.«175781_g85864986181826_cont_sun_m_356_4_alg».proof.Proof.Spec

set_option maxRecDepth 16384

noncomputable section

namespace Cert.KernelIdeal.Final

open Cert.KernelIdeal Cert.KernelIdeal.Gen Cert.KernelIdeal.Run
open Idealize.ShloMosaic Idealize.ShloMosaic.TcCoe Idealize.SL.Sem
open Idealize.ShloMosaic.ValueIdx

variable (m : (ℓ : Loc nD τ sig) → Buf (Elt Ideal) ℓ)

/-! ## The argument arrays as matrices -/

/-- The adjacency A as the region finds it. -/
def adjM (c : Dev nD) : Fin 10000 → Fin 10000 → EReal := fun r s => (V m c main_arg1 : S10000x10000.Idx → Elt Ideal .f32) (ix2 r s)
/-- The features X. -/
def featM (c : Dev nD) : Fin 10000 → Fin 128 → EReal := fun s l => (V m c main_arg0 : S10000x128.Idx → Elt Ideal .f32) (ix2 s l)
/-- The first layer's weights W₀, -/
def w0M (c : Dev nD) : Fin 128 → Fin 128 → EReal := fun k l => (V m c main_arg2 : S128x128.Idx → Elt Ideal .f32) (ix2 k l)
/-- the second layer's W₁, -/
def w1M (c : Dev nD) : Fin 128 → Fin 128 → EReal := fun j k => (V m c main_arg3 : S128x128.Idx → Elt Ideal .f32) (ix2 j k)
/-- and the self-supervised classifier's W_ss. -/
def wssM (c : Dev nD) : Fin 128 → Fin 128 → EReal := fun j k => (V m c main_arg4 : S128x128.Idx → Elt Ideal .f32) (ix2 j k)

/-! ## The hidden layer -/

/-- Row p of the block of point b (first phase) is row 200 b + p of the rectified first layer. -/
theorem hiddenBlock_apply (c : Dev nD) (b : Fin cfg0.N) (hb : b.val < 50) (p : Fin 200) (k : Fin 128) (r : Fin 10000)
    (hr : r.val = 200 * b.val + p.val) :
    hiddenBlock m c b (ix2 p k) = Cert.Spec.hidden (adjM m c) (featM m c) (w0M m c) r k := by
  unfold hiddenBlock Cert.Spec.hidden Cert.Spec.aggregate
  rw [PayValue.pay1_apply]
  refine congrArg (fun z => max z (0 : EReal)) (Finset.sum_congr rfl fun l _ => ?_)
  rw [BlockReads.w0_block m c b k l]
  refine congrArg (fun z => z * w0M m c k l) (Finset.sum_congr rfl fun s _ => ?_)
  rw [BlockReads.adj_block m c b p s r (by omega), BlockReads.feat_block m c b s l]
  rfl

/-- Entry (q, k) of the whole hidden layer. -/
theorem hfull_apply (c : Dev nD) (q : Fin 10000) (k : Fin 128) :
    hfull m c (ix2 q k) = Cert.Spec.hidden (adjM m c) (featM m c) (w0M m c) q k := by
  have hq : q.val < 10000 := q.isLt
  have hN : cfg0.N = 100 := N100
  unfold hfull
  exact hiddenBlock_apply m c ⟨q.val / 200, by omega⟩ (by show q.val / 200 < 50; omega) ⟨q.val % 200, Nat.mod_lt _ (by decide)⟩ k q
    (by show q.val = 200 * (q.val / 200) + q.val % 200; omega)

/-! ## The two heads at a point of the second phase -/

/-- Row p of what point t leaves in the first output's block is row 200 (t − 50) + p of the first head. -/
theorem out_block_apply (c : Dev nD) (t : Fin cfg0.N) (ht : 50 ≤ t.val) (p : Fin 200) (j : Fin 128) (r : Fin 10000)
    (hr : r.val = 200 * (t.val - 50) + p.val) :
    (dats m 0 c).after 5 t (ix2 p j) = Cert.Spec.head (adjM m c) (featM m c) (w0M m c) (w1M m c) r j := by
  have hN : t.val < 100 := lt_of_lt_of_eq t.isLt N100
  rw [after_out5]
  change @Eq EReal _ _
  unfold Cert.Spec.head Cert.Spec.mixed
  rw [PayValue.pay3_apply]
  refine Finset.sum_congr rfl fun k _ => ?_
  rw [BlockReads.w1_block m c t j k]
  refine congrArg (fun z => z * w1M m c j k) (Finset.sum_congr rfl fun q _ => ?_)
  rw [BlockReads.adj_block m c t p q r (by omega), hfull_apply]
  rfl

/-- The same for the second output and the second head. -/
theorem xs_block_apply (c : Dev nD) (t : Fin cfg0.N) (ht : 50 ≤ t.val) (p : Fin 200) (j : Fin 128) (r : Fin 10000)
    (hr : r.val = 200 * (t.val - 50) + p.val) :
    (dats m 0 c).after 6 t (ix2 p j) = Cert.Spec.head (adjM m c) (featM m c) (w0M m c) (wssM m c) r j := by
  have hN : t.val < 100 := lt_of_lt_of_eq t.isLt N100
  rw [after_out6]
  change @Eq EReal _ _
  unfold Cert.Spec.head Cert.Spec.mixed
  rw [PayValue.pay4_apply]
  refine Finset.sum_congr rfl fun k _ => ?_
  rw [BlockReads.wss_block m c t j k]
  refine congrArg (fun z => z * wssM m c j k) (Finset.sum_congr rfl fun q _ => ?_)
  rw [BlockReads.adj_block m c t p q r (by omega), hfull_apply]
  rfl

/-! ## The two result arrays after the run -/

/-- The first head as the contents of the first result array. -/
def outG (c : Dev nD) : Buf (Elt Ideal) ((cfg0.win 5).arr.view.loc (c.tc : Thread nD τ)) :=
  fun i => Cert.Spec.head (adjM m c) (featM m c) (w0M m c) (w1M m c) (i 0) (i 1)

/-- The second head as the contents of the second result array. -/
def xsG (c : Dev nD) : Buf (Elt Ideal) ((cfg0.win 6).arr.view.loc (c.tc : Thread nD τ)) :=
  fun i => Cert.Spec.head (adjM m c) (featM m c) (w0M m c) (wssM m c) (i 0) (i 1)

/-- The fifty blocks written back through the second phase tile the first result array with the first head. -/
theorem out_final (c : Dev nD) : (dats m 0 c).arrAt 5 cfg0.N = outG m c :=
  OutArray.out_array (dats m 0 c) (outG m c) fun t ht p j r hr => out_block_apply m c t ht p j r hr

/-- Likewise the second result array and the second head. -/
theorem xs_final (c : Dev nD) : (dats m 0 c).arrAt 6 cfg0.N = xsG m c :=
  OutArray.xs_array (dats m 0 c) (xsG m c) fun t ht p j r hr => xs_block_apply m c t ht p j r hr

end Cert.KernelIdeal.Final

end
-- ==== Proof.RefValue.lean ====
/-
  The reference program's two results, read index by index at the extended reals.

  The reference computes, with A the adjacency, X the features and W₀, W the weights stored [out, in]:
  A · X, then (A · X) · W₀ᵀ, its maximum with 0, A times that, and last the product with Wᵀ. Read at one
  index, each matrix product is a sum over the contracted coordinate, a transpose swaps the two coordinates, and
  the broadcast zero word is the extended real 0. Stage by stage these are the specification's `aggregate`,
  `hidden`, `mixed` and `head`, every sum in the order the specification writes it. The second result is the
  same chain of operations with the other head's weights in the last product.
-/
import proofs.«175781_g85864986181826_cont_sun_m_356_4_alg».proof.Defs
import proofs.«175781_g85864986181826_cont_sun_m_356_4_alg».proof.Proof.Gen.ReferenceIdeal.Run
import proofs.«175781_g85864986181826_cont_sun_m_356_4_alg».proof.Proof.Gen.ReferenceIdeal.Read
import proofs.«175781_g85864986181826_cont_sun_m_356_4_alg».proof.Proof.Spec
import Idealize.ShloMosaic.Lib.ValueIdx

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open scoped BigOperators

/-! ## The first result, stage by stage -/

/-- A · X at row `r`, column `l`: the sum over `s` of A r s · X s l. -/
theorem aggregate_at (x0 : (⟨S10000x128, .f32⟩ : BufTy).Contents (Elt Ideal)) (x1 : (⟨S10000x10000, .f32⟩ : BufTy).Contents (Elt Ideal)) (r : Fin 10000) (l : Fin 128) :
    val_main_v0 (F := Ideal) x0 x1 (ValueIdx.ix2 r l)
      = Cert.Spec.aggregate (fun r s => x1 (ValueIdx.ix2 r s)) (fun s l => x0 (ValueIdx.ix2 s l)) r l := by
  rw [val_main_v0_apply]
  unfold Cert.Spec.aggregate
  refine Finset.sum_congr rfl fun s _ => ?_
  have el : lidx_main_v0 (ValueIdx.ix2 r l) s = ValueIdx.ix2 r s := funext fun a => Fin.ext (by match a with | ⟨0, _⟩ => rfl | ⟨1, _⟩ => rfl)
  have er : ridx_main_v0 (ValueIdx.ix2 r l) s = ValueIdx.ix2 s l := funext fun a => Fin.ext (by match a with | ⟨0, _⟩ => rfl | ⟨1, _⟩ => rfl)
  rw [el, er]

/-- W₀ᵀ at row `l`, column `k` is W₀ k l. -/
theorem w0T_at (x2 : (⟨S128x128, .f32⟩ : BufTy).Contents (Elt Ideal)) (l k : Fin 128) :
    val_main_v1 (F := Ideal) x2 (ValueIdx.ix2 l k) = x2 (ValueIdx.ix2 k l) := by
  rw [val_main_v1_apply]
  have e : idx_main_v1 (ValueIdx.ix2 l k) = ValueIdx.ix2 k l := funext fun a => Fin.ext (by match a with | ⟨0, _⟩ => rfl | ⟨1, _⟩ => rfl)
  rw [e]

/-- (A · X) · W₀ᵀ at row `r`, column `k`: the sum over `l` of (A · X) r l · W₀ k l. -/
theorem pre_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v2 (F := Ideal) x0 x1 x2 (ValueIdx.ix2 r k)
      = ∑ l : Fin 128, Cert.Spec.aggregate (fun r s => x1 (ValueIdx.ix2 r s)) (fun s l => x0 (ValueIdx.ix2 s l)) r l * x2 (ValueIdx.ix2 k l) := by
  rw [val_main_v2_apply]
  refine Finset.sum_congr rfl fun l _ => ?_
  have el : lidx_main_v2 (ValueIdx.ix2 r k) l = ValueIdx.ix2 r l := funext fun a => Fin.ext (by match a with | ⟨0, _⟩ => rfl | ⟨1, _⟩ => rfl)
  have er : ridx_main_v2 (ValueIdx.ix2 r k) l = ValueIdx.ix2 l k := funext fun a => Fin.ext (by match a with | ⟨0, _⟩ => rfl | ⟨1, _⟩ => rfl)
  rw [el, er, aggregate_at, w0T_at]

/-- The rectified first layer at row `r`, column `k`: the broadcast zero word is the extended real 0. -/
theorem hidden_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v3 (F := Ideal) x0 x1 x2 (ValueIdx.ix2 r k)
      = Cert.Spec.hidden (fun r s => x1 (ValueIdx.ix2 r s)) (fun s l => x0 (ValueIdx.ix2 s l)) (fun k l => x2 (ValueIdx.ix2 k l)) r k := by
  rw [val_main_v3_apply, val_main_call0_v0_apply, val_main_call0_cst_apply, pre_at,
    Ideal.maximumf_def, Ideal.ofBits_def, Ideal.ofBits_zero_f32]
  rfl

/-- A · hidden at row `r`, column `k`: the sum over `q` of A r q · hidden q k. -/
theorem mixed_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v4 (F := Ideal) x0 x1 x2 (ValueIdx.ix2 r k)
      = Cert.Spec.mixed (fun r s => x1 (ValueIdx.ix2 r s)) (fun s l => x0 (ValueIdx.ix2 s l)) (fun k l => x2 (ValueIdx.ix2 k l)) r k := by
  rw [val_main_v4_apply]
  unfold Cert.Spec.mixed
  refine Finset.sum_congr rfl fun q _ => ?_
  have el : lidx_main_v4 (ValueIdx.ix2 r k) q = ValueIdx.ix2 r q := funext fun a => Fin.ext (by match a with | ⟨0, _⟩ => rfl | ⟨1, _⟩ => rfl)
  have er : ridx_main_v4 (ValueIdx.ix2 r k) q = ValueIdx.ix2 q k := funext fun a => Fin.ext (by match a with | ⟨0, _⟩ => rfl | ⟨1, _⟩ => rfl)
  rw [el, er, hidden_at]

/-- Wᵀ at row `k`, column `j` is W j k. -/
theorem wT_at (x3 : (⟨S128x128, .f32⟩ : BufTy).Contents (Elt Ideal)) (k j : Fin 128) :
    val_main_v5 (F := Ideal) x3 (ValueIdx.ix2 k j) = x3 (ValueIdx.ix2 j k) := by
  rw [val_main_v5_apply]
  have e : idx_main_v5 (ValueIdx.ix2 k j) = ValueIdx.ix2 j k := funext fun a => Fin.ext (by match a with | ⟨0, _⟩ => rfl | ⟨1, _⟩ => rfl)
  rw [e]

/-- The first result at row `r`, column `j`: the sum over `k` of mixed r k · W j k. -/
theorem head_at (x0 : (⟨S10000x128, .f32⟩ : BufTy).Contents (Elt Ideal)) (x1 : (⟨S10000x10000, .f32⟩ : BufTy).Contents (Elt Ideal)) (x2 x3 : (⟨S128x128, .f32⟩ : BufTy).Contents (Elt Ideal)) (r : Fin 10000) (j : Fin 128) :
    val_main_v6 (F := Ideal) x0 x1 x2 x3 (ValueIdx.ix2 r j)
      = Cert.Spec.head (fun r s => x1 (ValueIdx.ix2 r s)) (fun s l => x0 (ValueIdx.ix2 s l)) (fun k l => x2 (ValueIdx.ix2 k l)) (fun j k => x3 (ValueIdx.ix2 j k)) r j := by
  rw [val_main_v6_apply]
  unfold Cert.Spec.head
  refine Finset.sum_congr rfl fun k _ => ?_
  have el : lidx_main_v6 (ValueIdx.ix2 r j) k = ValueIdx.ix2 r k := funext fun a => Fin.ext (by match a with | ⟨0, _⟩ => rfl | ⟨1, _⟩ => rfl)
  have er : ridx_main_v6 (ValueIdx.ix2 r j) k = ValueIdx.ix2 k j := funext fun a => Fin.ext (by match a with | ⟨0, _⟩ => rfl | ⟨1, _⟩ => rfl)
  rw [el, er, mixed_at, wT_at]

/-- The reference's first result at an index is the specification's head at the second-layer weights. -/
theorem out_eq (x0 : (⟨S10000x128, .f32⟩ : BufTy).Contents (Elt Ideal)) (x1 : (⟨S10000x10000, .f32⟩ : BufTy).Contents (Elt Ideal)) (x2 x3 : (⟨S128x128, .f32⟩ : BufTy).Contents (Elt Ideal)) (i : S10000x128.Idx) :
    Cert.ReferenceIdeal.Read.val_main_v6 (F := Ideal) x0 x1 x2 x3 i
      = Cert.Spec.head (fun r s => x1 (ValueIdx.ix2 r s)) (fun s l => x0 (ValueIdx.ix2 s l)) (fun k l => x2 (ValueIdx.ix2 k l)) (fun j k => x3 (ValueIdx.ix2 j k)) (i 0) (i 1) := by
  obtain ⟨r, j, rfl⟩ : ∃ (r : Fin 10000) (j : Fin 128), i = ValueIdx.ix2 r j := ⟨i 0, i 1, ValueIdx.eq_ix2 i⟩
  exact head_at x0 x1 x2 x3 r j

/-- The first result as a whole array. -/
theorem out_fun (x0 : (⟨S10000x128, .f32⟩ : BufTy).Contents (Elt Ideal)) (x1 : (⟨S10000x10000, .f32⟩ : BufTy).Contents (Elt Ideal)) (x2 x3 : (⟨S128x128, .f32⟩ : BufTy).Contents (Elt Ideal)) :
    Cert.ReferenceIdeal.Read.val_main_v6 (F := Ideal) x0 x1 x2 x3
      = fun i => Cert.Spec.head (fun r s => x1 (ValueIdx.ix2 r s)) (fun s l => x0 (ValueIdx.ix2 s l)) (fun k l => x2 (ValueIdx.ix2 k l)) (fun j k => x3 (ValueIdx.ix2 j k)) (i 0) (i 1) :=
  funext fun i => out_eq x0 x1 x2 x3 i

/-! ## The second result: the same operations, the other head's weights in the last product -/

/-- The second chain's operations are, one by one, the first chain's: the same operation of the same operands. -/
theorem second_chain (x0 : (⟨S10000x128, .f32⟩ : BufTy).Contents (Elt Ideal)) (x1 : (⟨S10000x10000, .f32⟩ : BufTy).Contents (Elt Ideal)) (x2 x4 : (⟨S128x128, .f32⟩ : BufTy).Contents (Elt Ideal)) :
    val_main_v13 (F := Ideal) x0 x1 x2 x4 = val_main_v6 (F := Ideal) x0 x1 x2 x4 := rfl

/-- The reference's second result at an index is the specification's head at the other head's weights. -/
theorem xs_eq (x0 : (⟨S10000x128, .f32⟩ : BufTy).Contents (Elt Ideal)) (x1 : (⟨S10000x10000, .f32⟩ : BufTy).Contents (Elt Ideal)) (x2 x4 : (⟨S128x128, .f32⟩ : BufTy).Contents (Elt Ideal)) (i : S10000x128.Idx) :
    Cert.ReferenceIdeal.Read.val_main_v13 (F := Ideal) x0 x1 x2 x4 i
      = Cert.Spec.head (fun r s => x1 (ValueIdx.ix2 r s)) (fun s l => x0 (ValueIdx.ix2 s l)) (fun k l => x2 (ValueIdx.ix2 k l)) (fun j k => x4 (ValueIdx.ix2 j k)) (i 0) (i 1) := by
  rw [second_chain]
  exact out_eq x0 x1 x2 x4 i

/-- The second result as a whole array. -/
theorem xs_fun (x0 : (⟨S10000x128, .f32⟩ : BufTy).Contents (Elt Ideal)) (x1 : (⟨S10000x10000, .f32⟩ : BufTy).Contents (Elt Ideal)) (x2 x4 : (⟨S128x128, .f32⟩ : BufTy).Contents (Elt Ideal)) :
    Cert.ReferenceIdeal.Read.val_main_v13 (F := Ideal) x0 x1 x2 x4
      = fun i => Cert.Spec.head (fun r s => x1 (ValueIdx.ix2 r s)) (fun s l => x0 (ValueIdx.ix2 s l)) (fun k l => x2 (ValueIdx.ix2 k l)) (fun j k => x4 (ValueIdx.ix2 j k)) (i 0) (i 1) :=
  funext fun i => xs_eq x0 x1 x2 x4 i

end Cert.RefValue

end
-- ==== Proof.lean ====
/-
  A two-layer graph convolution with two linear heads: the kernel against its reference.

  The reference computes, for an N × N adjacency A (N = 10000), N × 128 features X and 128 × 128 weights W₀, W₁, W_ss
  stored [out, in],
      H = max ((A · X) · W₀ᵀ) 0,   out = (A · H) · W₁ᵀ,   xs = (A · H) · W_ssᵀ
  (it forms H twice; the two copies are the same term). The kernel is one region over a grid of two phases of fifty
  points. Through the first phase point i computes rows [200 i, 200 i + 200) of H from those rows of A and parks them
  in a scratch it keeps between points; through the second, point i multiplies the same rows of A against the whole
  scratch and applies both weight matrices, writing rows [200 i, 200 i + 200) of both results. The result windows are
  idle through the first phase and written back only in the second, each block exactly once.

  Over the extended reals every entry of either program is the same nested finite sum, `Spec.head`, with the terms
  in the same order on both sides: a matrix unit's product into a zero accumulator and the host's contraction are the same
  sum, the rectifier is `max · 0` on both sides, and tiling A by rows changes no entry. No law of arithmetic
  that could fail at an infinity is used, so the precondition (finite inputs) is never opened.

  The kernel's run is proved once at any float instance (the body in each phase, the invariant that the scratch holds
  the rows of H stored so far, the launch) and read at the word-level instance for the first frame and at the exact one
  for the second frame and the value; the reference's run and its operations read at an index are the generated modules.
-/
import proofs.«175781_g85864986181826_cont_sun_m_356_4_alg».proof.Defs
import proofs.«175781_g85864986181826_cont_sun_m_356_4_alg».proof.Proof.Gen.Kernel
import proofs.«175781_g85864986181826_cont_sun_m_356_4_alg».proof.Proof.Gen.KernelIdeal
import proofs.«175781_g85864986181826_cont_sun_m_356_4_alg».proof.Proof.Gen.ReferenceIdeal
import proofs.«175781_g85864986181826_cont_sun_m_356_4_alg».proof.Proof.Gen.Pre_finite_inputs
import proofs.«175781_g85864986181826_cont_sun_m_356_4_alg».proof.Proof.RunBits
import proofs.«175781_g85864986181826_cont_sun_m_356_4_alg».proof.Proof.KernelValue
import proofs.«175781_g85864986181826_cont_sun_m_356_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Run.frame m ρ

/-- So does the kernel read at the extended reals. -/
theorem frame_ideal : Cert.frame_KernelIdeal := fun m ρ _ => Cert.KernelIdeal.Run.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with each result array at `Spec.head` of the (agreeing) argument arrays: the kernel by its
    run and the tiling of each result by the fifty blocks of the second phase, the reference by its operations read
    at an index. -/
theorem algebraic : Cert.algebraic_KernelIdeal_ReferenceIdeal := by
  intro m ρ m' ρ' _ hagree
  refine ⟨fun c => Cert.KernelIdeal.Final.outG m c, fun c => Cert.KernelIdeal.Final.xsG m c, ?_, ?_⟩
  · refine (θ_run Cert.KernelIdeal.defs _ _).mono (fun r h c => ?_) (Cert.KernelIdeal.Run.run_main m ρ)
    exact ⟨((h c).1 5).trans (Cert.KernelIdeal.Final.out_final m c),
      ((h c).1 6).trans (Cert.KernelIdeal.Final.xs_final m c),
      ((h c).1 1).trans (((Cert.KernelIdeal.Run.dats m 0 c).arrAt_in 1 rfl _).trans ((Cert.KernelIdeal.Run.arrays_eq m c 1).trans (Cert.KernelIdeal.Gen.V_main_arg0 m c))),
      ((h c).1 0).trans (((Cert.KernelIdeal.Run.dats m 0 c).arrAt_in 0 rfl _).trans ((Cert.KernelIdeal.Run.arrays_eq m c 0).trans (Cert.KernelIdeal.Gen.V_main_arg1 m c))),
      ((h c).1 2).trans (((Cert.KernelIdeal.Run.dats m 0 c).arrAt_in 2 rfl _).trans ((Cert.KernelIdeal.Run.arrays_eq m c 2).trans (Cert.KernelIdeal.Gen.V_main_arg2 m c))),
      ((h c).1 3).trans (((Cert.KernelIdeal.Run.dats m 0 c).arrAt_in 3 rfl _).trans ((Cert.KernelIdeal.Run.arrays_eq m c 3).trans (Cert.KernelIdeal.Gen.V_main_arg3 m c))),
      ((h c).1 4).trans (((Cert.KernelIdeal.Run.dats m 0 c).arrAt_in 4 rfl _).trans ((Cert.KernelIdeal.Run.arrays_eq m c 4).trans (Cert.KernelIdeal.Gen.V_main_arg4 m c)))⟩
  · refine (θ_run Cert.ReferenceIdeal.defs _ _).mono (fun r h c => ?_) (Cert.ReferenceIdeal.Value.run (F := Ideal) m' ρ')
    obtain ⟨h6, h13, ha0, ha1, ha2, ha3, ha4⟩ := h c
    refine ⟨h6.trans ?_, h13.trans ?_, ha0, ha1, ha2, ha3, ha4⟩
    · rw [Cert.ReferenceIdeal.Read.val_main_v6_eq, Cert.RefValue.out_fun, (hagree c).1, (hagree c).2.1, (hagree c).2.2.1, (hagree c).2.2.2.1]
      rfl
    · rw [Cert.ReferenceIdeal.Read.val_main_v13_eq, Cert.RefValue.xs_fun, (hagree c).1, (hagree c).2.1, (hagree c).2.2.1, (hagree c).2.2.2.2]
      rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
